-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S26460000 : Shape := ⟨1, ![26460000]⟩
abbrev S_ : Shape := ⟨0, ![]⟩

class Facts : Prop where
  bcast_S_S26460000 : S_.BroadcastsInDim S26460000 (![] : Fin 0 → Fin S26460000.rank)
  reducesTo_S26460000_S_d0 : S26460000.ReducesTo [0] S_
  h_S_ : 0 < S_.numel

variable [Facts]

def fn {F : FTy → Type} [FloatOps F] (main_arg0 : FVec F S26460000 .f32) : IVec S_ 1 :=
  let main_v0 : FVec F S26460000 .f32 := Host.absf main_arg0
  let main_cst : FVec F S_ .f32 := constant S_ .f32 0x7F800000#32
  let main_v1 : FVec F S26460000 .f32 := broadcastInDim S26460000 ![] bcast_S_S26460000 main_cst
  let main_v2 : IVec S26460000 1 := cmpf .olt main_v0 main_v1
  let main_c : IVec S_ 1 := constantI S_ 1 1#1
  let main_v3 : IVec S_ 1 := (fun x v => Host.reduce IntOp.andi x v reducesTo_S26460000_S_d0 h_S_) main_v2 main_c
  main_v3
-- ==== Kernel.lean ====
abbrev S26460000 : Shape := ⟨1, ![26460000]⟩
abbrev S524288 : Shape := ⟨1, ![524288]⟩
abbrev S45056 : Shape := ⟨1, ![45056]⟩
abbrev S_ : Shape := ⟨0, ![]⟩
abbrev S569344 : Shape := ⟨1, ![569344]⟩

abbrev nBuf : Space → Nat
  | .hbm => 2
  | .vmem => 5
  | .smem => 0
  | _ => 0

abbrev bufTy : (tb : Table) → Fin (tcTables nBuf tb) → BufTy
  | .hbm, ⟨0, _⟩ => ⟨S26460000, .f32⟩
  | .hbm, ⟨1, _⟩ => ⟨S26460000, .f32⟩
  | .local _ .vmem, ⟨0, _⟩ => ⟨S524288, .f32⟩
  | .local _ .vmem, ⟨1, _⟩ => ⟨S524288, .f32⟩
  | .local _ .vmem, ⟨2, _⟩ => ⟨S524288, .f32⟩
  | .local _ .vmem, ⟨3, _⟩ => ⟨S524288, .f32⟩
  | .local _ .vmem, ⟨4, _⟩ => ⟨S45056, .f32⟩
  | _, _ => ⟨S26460000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg0 : BitVec 32 := BitVec.ofNat 32 (i 0).val
  let c524288_i32 : BitVec 32 := 524288#32
  let v32 : BitVec 32 := Scalar.muli arg0 c524288_i32
  let c45056_i32 : BitVec 32 := 45056#32
  let v33 : BitVec 32 := Scalar.subi v32 c45056_i32
  v33
def k0_off1 (i : grid0.Coords) : Fin 1 → Nat :=
  let arg0 : BitVec 32 := BitVec.ofNat 32 (i 0).val
  let c524288_i32 : BitVec 32 := 524288#32
  let v32 : BitVec 32 := Scalar.muli arg0 c524288_i32
  let c45056_i32 : BitVec 32 := 45056#32
  let v33 : BitVec 32 := Scalar.subi v32 c45056_i32
  let v34 : BitVec 32 := v33
  ![v34.toNat]
def cc0_transform_0 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S45056_S45056_0 : ∀ a, (![0] : Fin 1 → Nat) a + S45056.size a ≤ S45056.size a
  h_S45056 : 0 < S45056.numel
  shapeCasts_S45056_S45056 : S45056.ShapeCasts S45056
  inb_S524288_S524288_0 : ∀ a, (![0] : Fin 1 → Nat) a + S524288.size a ≤ S524288.size a
  h_S524288 : 0 < S524288.numel
  concatenates_S45056_S524288_S569344_d0 : Shape.Concatenates [S45056, S524288] S569344 0
  slices_S569344_o34030_S524288 : S569344.Slices ![34030] S524288
  slices_S569344_o23005_S524288 : S569344.Slices ![23005] S524288
  slices_S569344_o11980_S524288 : S569344.Slices ![11980] S524288
  slices_S569344_o955_S524288 : S569344.Slices ![955] S524288
  hcc0_scratch1 : 4 + S_.numel ≤ 5
  hrank0 : 0 < grid0.rank
  k0_mult1_dvd : ∀ i : grid0.Coords, ∀ (k0_h2 : k0_cond2 i = 1#1), 1024 ∣ (k0_mult1 i).toNat
  k0_off1_inb : ∀ i : grid0.Coords, ∀ (k0_h2 : k0_cond2 i = 1#1), ∀ a, (k0_off1 i) a + S45056.size a ≤ S26460000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S524288.size a < S26460000.size a
  hwx0_0 : ∀ i : grid0.Coords, EltTy.bits .f32 = 32 ∨ (Rect.unit (s := S26460000) (fun a => cc0_transform_0 i a * S524288.size a) (fun a => (Pipeline.Clip.of (cc0_transform_0 i a) (S524288.size a) (S26460000.size a)).extent (S524288.size a)) fun a => Pipeline.Clip.inb (Pipeline.Clip.ok_of (hstart0_0 i a))).WholeWords (EltTy.packing .f32)
  hwxs0_0 : ∀ i : grid0.Coords, EltTy.bits .f32 = 32 ∨ (Rect.unit (s := S524288) (fun _ => 0) (fun a => (Pipeline.Clip.of (cc0_transform_0 i a) (S524288.size a) (S26460000.size a)).extent (S524288.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hstart0_1 : ∀ (i : grid0.Coords) a, cc0_transform_2 i a * S524288.size a < S26460000.size a
  hwx0_1 : ∀ i : grid0.Coords, EltTy.bits .f32 = 32 ∨ (Rect.unit (s := S26460000) (fun a => cc0_transform_2 i a * S524288.size a) (fun a => (Pipeline.Clip.of (cc0_transform_2 i a) (S524288.size a) (S26460000.size a)).extent (S524288.size a)) fun a => Pipeline.Clip.inb (Pipeline.Clip.ok_of (hstart0_1 i a))).WholeWords (EltTy.packing .f32)
  hwxs0_1 : ∀ i : grid0.Coords, EltTy.bits .f32 = 32 ∨ (Rect.unit (s := S524288) (fun _ => 0) (fun a => (Pipeline.Clip.of (cc0_transform_2 i a) (S524288.size a) (S26460000.size a)).extent (S524288.size a)) fun a => (Nat.zero_add _).trans_le (Pipeline.Clip.extent_le (Pipeline.Clip.ok_of (hstart0_1 i a)))).WholeWords (EltTy.packing .f32)

variable [Facts₀]

abbrev cc0_scratch1 : DmaSems sig S_ := SemArray.consecutive 4 S_ hcc0_scratch1

abbrev win0_0 : Pipeline.Window sig grid0 :=
  Pipeline.Window.ofSpecClip (Memref.whole main_arg0) S524288.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S524288.size cc0_transform_2 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S26460000 : Shape := ⟨1, ![26460000]⟩
abbrev S_ : Shape := ⟨0, ![]⟩
abbrev S26471026 : Shape := ⟨1, ![26471026]⟩
abbrev S26482051 : Shape := ⟨1, ![26482051]⟩
abbrev S26493076 : Shape := ⟨1, ![26493076]⟩
abbrev S26504101 : Shape := ⟨1, ![26504101]⟩

abbrev nBuf : Space → Nat
  | .hbm => 42
  | .vmem => 0
  | .smem => 0
  | _ => 0

abbrev bufTy : (tb : Table) → Fin (tcTables nBuf tb) → BufTy
  | .hbm, ⟨0, _⟩ => ⟨S26460000, .f32⟩
  | .hbm, ⟨1, _⟩ => ⟨S_, .f32⟩
  | .hbm, ⟨2, _⟩ => ⟨S26460000, .f32⟩
  | .hbm, ⟨3, _⟩ => ⟨S_, .i32⟩
  | .hbm, ⟨4, _⟩ => ⟨S_, .f32⟩
  | .hbm, ⟨5, _⟩ => ⟨S26471026, .f32⟩
  | .hbm, ⟨6, _⟩ => ⟨S26460000, .f32⟩
  | .hbm, ⟨7, _⟩ => ⟨S_, .f32⟩
  | .hbm, ⟨8, _⟩ => ⟨S26460000, .f32⟩
  | .hbm, ⟨9, _⟩ => ⟨S26460000, .f32⟩
  | .hbm, ⟨10, _⟩ => ⟨S26460000, .f32⟩
  | .hbm, ⟨11, _⟩ => ⟨S_, .i32⟩
  | .hbm, ⟨12, _⟩ => ⟨S_, .f32⟩
  | .hbm, ⟨13, _⟩ => ⟨S26482051, .f32⟩
  | .hbm, ⟨14, _⟩ => ⟨S26460000, .f32⟩
  | .hbm, ⟨15, _⟩ => ⟨S_, .f32⟩
  | .hbm, ⟨16, _⟩ => ⟨S26460000, .f32⟩
  | .hbm, ⟨17, _⟩ => ⟨S26460000, .f32⟩
  | .hbm, ⟨18, _⟩ => ⟨S26460000, .f32⟩
  | .hbm, ⟨19, _⟩ => ⟨S_, .i32⟩
  | .hbm, ⟨20, _⟩ => ⟨S_, .f32⟩
  | .hbm, ⟨21, _⟩ => ⟨S26493076, .f32⟩
  | .hbm, ⟨22, _⟩ => ⟨S26460000, .f32⟩
  | .hbm, ⟨23, _⟩ => ⟨S_, .f32⟩
  | .hbm, ⟨24, _⟩ => ⟨S26460000, .f32⟩
  | .hbm, ⟨25, _⟩ => ⟨S26460000, .f32⟩
  | .hbm, ⟨26, _⟩ => ⟨S26460000, .f32⟩
  | .hbm, ⟨27, _⟩ => ⟨S_, .i32⟩
  | .hbm, ⟨28, _⟩ => ⟨S_, .f32⟩
  | .hbm, ⟨29, _⟩ => ⟨S26504101, .f32⟩
  | .hbm, ⟨30, _⟩ => ⟨S26460000, .f32⟩
  | .hbm, ⟨31, _⟩ => ⟨S_, .f32⟩
  | .hbm, ⟨32, _⟩ => ⟨S26460000, .f32⟩
  | .hbm, ⟨33, _⟩ => ⟨S26460000, .f32⟩
  | .hbm, ⟨34, _⟩ => ⟨S26460000, .f32⟩
  | .hbm, ⟨35, _⟩ => ⟨S_, .f32⟩
  | .hbm, ⟨36, _⟩ => ⟨S26460000, .f32⟩
  | .hbm, ⟨37, _⟩ => ⟨S26460000, .f32⟩
  | .hbm, ⟨38, _⟩ => ⟨S_, .f32⟩
  | .hbm, ⟨39, _⟩ => ⟨S26460000, .f32⟩
  | .hbm, ⟨40, _⟩ => ⟨S26460000, .f32⟩
  | .hbm, ⟨41, _⟩ => ⟨S26460000, .f32⟩
  | _, _ => ⟨S26460000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S26460000 : S_.BroadcastsInDim S26460000 (![] : Fin 0 → Fin S26460000.rank)
  pads_S26460000_S26471026_1102600 : S26460000.Pads (![11026] : Fin 1 → Nat) ![0] ![0] S26471026
  h_S_ : 0 < S_.numel
  slices_S26471026_S26460000_0 : S26471026.Slices ![0] S26460000
  pads_S26460000_S26482051_2205100 : S26460000.Pads (![22051] : Fin 1 → Nat) ![0] ![0] S26482051
  slices_S26482051_S26460000_0 : S26482051.Slices ![0] S26460000
  pads_S26460000_S26493076_3307600 : S26460000.Pads (![33076] : Fin 1 → Nat) ![0] ![0] S26493076
  slices_S26493076_S26460000_0 : S26493076.Slices ![0] S26460000
  pads_S26460000_S26504101_4410100 : S26460000.Pads (![44101] : Fin 1 → Nat) ![0] ![0] S26504101
  slices_S26504101_S26460000_0 : S26504101.Slices ![0] S26460000

variable [Facts₀]

class Facts : Prop extends Facts₀ where

variable [Facts]
-- ==== Proof.BodyBits.lean ====
import proofs.«179438_j73160472920636_2_alg».proof.Proof.Gen.Kernel.Launch
import proofs.«179438_j73160472920636_2_alg».proof.Proof.Gen.Kernel.Skeleton
import proofs.«179438_j73160472920636_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The body of the tap-delay kernel, run once per control case

At the first grid point the look-back scratch is zeroed; at every later point it is filled from the
`45056` samples of the input that precede the point's block, by a transfer the body starts and waits
for itself. Both cases then load the current block and the scratch, and store the mixed block. -/

/-- The first branch's condition: the grid coordinate is zero. -/
abbrev condFirst (i : grid0.Coords) : Prop := (Scalar.cmpi .ne (Scalar.extui (Scalar.cmpi .eq (BitVec.ofNat 32 (i 0).val) 0#32)) 0#32) = 1#1

/-- The two conditions over the grid: the first holds at point 0 only, the second everywhere else. -/
theorem hcondFirst : ∀ t : Fin cfg0.N, condFirst (grid0.coords t) ↔ t.val = 0 :=
  (by decide +kernel : ∀ t : Fin grid0.N, condFirst (grid0.coords t) ↔ t.val = 0)
theorem hcondLater : ∀ t : Fin cfg0.N, k0_cond2 (grid0.coords t) = 1#1 ↔ t.val ≠ 0 :=
  (by decide +kernel : ∀ t : Fin grid0.N, k0_cond2 (grid0.coords t) = 1#1 ↔ t.val ≠ 0)

/-- The operand left in HBM, whole: the input array itself. -/
abbrev hbM : Memref sig .tc .hbm S26460000 .f32 := Memref.whole main_arg0
abbrev HbBuf (c : Dev nD) {sp : Space} {S : Shape} {e : EltTy} (M : Memref sig .tc sp S e) : Type := Buf (Elt F) (M.view.loc (c : Thread nD τ))
/-- The input array held whole at share `q`. -/
abbrev hbPt (c : Dev nD) (q : PosShare TreeShare) {sp : Space} {S : Shape} {e : EltTy} (M : Memref sig .tc sp S e) (f : HbBuf (F := F) c M) : sProp 𝕄 :=
  M.view.loc (c : Thread nD τ) ↦{q} f

set_option maxHeartbeats 1000000 in
/-- The body at the first point: the scratch is overwritten with zeros, nothing is transferred. The pieces the
    output's buffer ends with are found by the run. -/
noncomputable def kernelRunA (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1)
    (x0 : Vec F S524288 .f32) (fh0 : HbBuf (F := F) c hbM) :
    { L1 : List (View.Piece (Elt F) S524288 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ semVal ((c : Thread nD τ), SemLoc.dma 4) 0 ∗ hbPt c q hbM fh0 ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ d, owns (c : Thread nD τ) arg4 fullShare d) ∗ semVal ((c : Thread nD τ), SemLoc.dma 4) 0 ∗ hbPt c q hbM fh0 ∗ (∃ W', owes (c : Thread nD τ) 0 W')) -∗ K ⟨⟩))
          ⊢ wp frame (wpE (defs₀ (F := F)) Variants.none c none) Set.univ (cc0__tap_delay_kernel i arg1 harg1 (Memref.whole main_arg0) (Memref.isWhole_whole _) arg3 harg3 arg4 harg4 cc0_scratch1) K } := by
  refine ⟨?_, fun W K => ?run⟩
  case run =>
    simp only [cc0__tap_delay_kernel_eq_skeleton]; unfold cc0__tap_delay_kernel_skel
    unfold owns
    iintro ⟨⟨%f0, %hf0, H0⟩, ⟨%d1, %f1, -, H1⟩, ⟨%ds0, %fs0, -, HS0⟩, Hq0, Hh0, HW, Hk⟩
    obtain rfl := harg1.eq_unread hf0
    sl_exec (disch := first | exact hc1 | exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0]; · iexact Hq0
    isplitl [Hh0]; · iexact Hh0
    iexists _; iexact HW

set_option maxHeartbeats 1000000 in
/-- The body at a later point: the scratch is filled by the body's own transfer out of the input array, which is
    lent to the transfer at the share held and handed back by the wait. -/
noncomputable def kernelRunB (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1)
    (x0 : Vec F S524288 .f32) (fh0 : HbBuf (F := F) c hbM) :
    { L1 : List (View.Piece (Elt F) S524288 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ semVal ((c : Thread nD τ), SemLoc.dma 4) 0 ∗ hbPt c q hbM fh0 ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ d, owns (c : Thread nD τ) arg4 fullShare d) ∗ semVal ((c : Thread nD τ), SemLoc.dma 4) 0 ∗ hbPt c q hbM fh0 ∗ (∃ W', owes (c : Thread nD τ) 0 W')) -∗ K ⟨⟩))
          ⊢ wp frame (wpE (defs₀ (F := F)) Variants.none c none) Set.univ (cc0__tap_delay_kernel i arg1 harg1 (Memref.whole main_arg0) (Memref.isWhole_whole _) arg3 harg3 arg4 harg4 cc0_scratch1) K } := by
  refine ⟨?_, fun W K => ?run⟩
  case run =>
    simp only [cc0__tap_delay_kernel_eq_skeleton]; unfold cc0__tap_delay_kernel_skel
    unfold owns
    iintro ⟨⟨%f0, %hf0, H0⟩, ⟨%d1, %f1, -, H1⟩, ⟨%ds0, %fs0, -, HS0⟩, Hq0, Hh0, HW, Hk⟩
    obtain rfl := harg1.eq_unread hf0
    sl_exec (disch := first | exact hc1 | exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0]; · iexact Hq0
    isplitl [Hh0]; · iexact Hh0
    iexists _; iexact HW

/-- The pieces of either run tile the output block (one whole store), so they cover it. -/
theorem coverA (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1) (x0 : Vec F S524288 .f32) (fh0 : HbBuf (F := F) c hbM) (y : S524288.Idx) :
    ∃ pc ∈ (kernelRunA c q i arg1 harg1 arg3 harg3 arg4 harg4 hc1 hc2 x0 fh0).1, y ∈ pc.1.set :=
  View.cover_of_tiledL (kernelRunA c q i arg1 harg1 arg3 harg3 arg4 harg4 hc1 hc2 x0 fh0).1 S524288.size (by sl_kernel_rfl) y
theorem coverB (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1) (x0 : Vec F S524288 .f32) (fh0 : HbBuf (F := F) c hbM) (y : S524288.Idx) :
    ∃ pc ∈ (kernelRunB c q i arg1 harg1 arg3 harg3 arg4 harg4 hc1 hc2 x0 fh0).1, y ∈ pc.1.set :=
  View.cover_of_tiledL (kernelRunB c q i arg1 harg1 arg3 harg3 arg4 harg4 hc1 hc2 x0 fh0).1 S524288.size (by sl_kernel_rfl) y

/-- One staging buffer of the output window, through which its contents are stated. -/
abbrev VO : View sig .tc .vmem S524288 .f32 := (Memref.whole cc0_stg1_0 : Memref sig .tc .vmem S524288 .f32).view

/-- What each run leaves in the output's staging buffer: its pieces read back over junk. -/
def outA (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1) (x0 : Vec F S524288 .f32) (fh0 : HbBuf (F := F) c hbM) : Vec F S524288 .f32 :=
  VO.read (Elt F) (VO.writes (Elt F) VO.junk (kernelRunA c q i arg1 harg1 arg3 harg3 arg4 harg4 hc1 hc2 x0 fh0).1)
def outB (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1) (x0 : Vec F S524288 .f32) (fh0 : HbBuf (F := F) c hbM) : Vec F S524288 .f32 :=
  VO.read (Elt F) (VO.writes (Elt F) VO.junk (kernelRunB c q i arg1 harg1 arg3 harg3 arg4 harg4 hc1 hc2 x0 fh0).1)

end Cert.Kernel.Hand

end
-- ==== Proof.PiecesBits.lean ====
import proofs.«179438_j73160472920636_2_alg».proof.Proof.BodyBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## What each run leaves in the output block, as the body's arithmetic of what it loaded -/

theorem hz1 : (![0] : Fin 1 → Nat) = fun _ => 0 := funext fun a => by fin_cases a; rfl

/-- A load of the whole buffer after one whole-buffer delivery reads what was delivered. -/
theorem readCov_whole_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h; exact View.readCov_unit_zero v rfl inb w

/-- The look-back samples a later point's transfer delivers: the 45056 samples of the input array that end where the
    point's block starts. -/
def lookBack (c : Dev nD) (i : grid0.Coords) (hc2 : k0_cond2 i = 1#1) (fh0 : HbBuf (F := F) c hbM) : Vec F S45056 .f32 :=
  View.read (Elt F) ((Memref.whole main_arg0 : Memref sig .tc .hbm S26460000 .f32).slice (Rect.unit (s := S26460000) (k0_off1 i) S45056.size (k0_off1_inb i hc2)) (fun _ => rfl)).view fh0

/-- At the first point the output block is the body's arithmetic of the current block and a zero look-back. -/
theorem outA_eq (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1) (x0 : Vec F S524288 .f32) (fh0 : HbBuf (F := F) c hbM) :
    outA c q i arg1 harg1 arg3 harg3 arg4 harg4 hc1 hc2 x0 fh0 = k0_pay2 x0 (k0_pay1 (F := F)) := by
  unfold outA
  rw [View.read_writes_eq_canon _ _ _ (coverA c q i arg1 harg1 arg3 harg3 arg4 harg4 hc1 hc2 x0 fh0)]
  unfold kernelRunA
  dsimp only
  sl_unfold_words
  rw [View.canon_unit_zero hz1]
  simp only [View.readAt_eq_ld, harg1.read_unread, View.ld_unit_zero (S := S524288) hz1]
  rw [View.readCov_unit_zero (S := S45056) _ hz1]

/-- At a later point it is the same arithmetic of the current block and the delivered look-back samples. -/
theorem outB_eq (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1) (x0 : Vec F S524288 .f32) (fh0 : HbBuf (F := F) c hbM) :
    outB c q i arg1 harg1 arg3 harg3 arg4 harg4 hc1 hc2 x0 fh0 = k0_pay2 x0 (lookBack c i hc2 fh0) := by
  unfold outB
  rw [View.read_writes_eq_canon _ _ _ (coverB c q i arg1 harg1 arg3 harg3 arg4 harg4 hc1 hc2 x0 fh0)]
  unfold kernelRunB
  dsimp only
  sl_unfold_words
  rw [View.canon_unit_zero hz1]
  simp only [View.readAt_eq_ld, harg1.read_unread, View.ld_unit_zero (S := S524288) hz1]
  rw [readCov_whole_unit_zero _ hz1]
  rfl

end Cert.Kernel.Hand

end
-- ==== Proof.Spec.lean ====
import Idealize.ShloMosaic.PureOps
import Idealize.ShloMosaic.Lib.ValueIdx

/-! # The multi-tap delay as one function of the input array

`wet[t] = Σ_k g_k · x[t - s_k]` over the four taps `s_k = 11026, 22051, 33076, 44101` (an index before the
start of the signal reads zero), and the result is `x[t]·½ + wet[t]·½`. The sum is taken in the order the
programs take it, starting from zero, so that the function is the same term at every float instance. -/

noncomputable section

namespace Cert.TapSpec

open Idealize.ShloMosaic Idealize.ShloMosaic.ValueIdx

/-- The signal's shape: 26,460,000 samples. -/
abbrev SN : Shape := ⟨1, ![26460000]⟩

variable {F : FTy → Type} [FloatOps F]

/-- The signal delayed by `s` samples: `x[t - s]`, and zero where `t < s`. -/
def delayed (x : SN.Idx → F .f32) (s : Nat) (i : SN.Idx) : F .f32 :=
  if h : s ≤ (i 0).val then x (ix1 (n := 26460000) ⟨(i 0).val - s, Nat.lt_of_le_of_lt (Nat.sub_le _ _) (i 0).isLt⟩)
  else Scalar.ofBits .f32 0x00000000#32

/-- One output sample from the current sample `a` and the four delayed ones. -/
def mixOf (a d1 d2 d3 d4 : F .f32) : F .f32 :=
  FloatOps.addf (FloatOps.mulf a (Scalar.ofBits .f32 0x3F000000#32))
    (FloatOps.mulf
      (FloatOps.addf
        (FloatOps.addf
          (FloatOps.addf
            (FloatOps.addf (Scalar.ofBits .f32 0x00000000#32) (FloatOps.mulf (Scalar.ofBits .f32 0x3F4CCCCD#32) d1))
            (FloatOps.mulf (Scalar.ofBits .f32 0x3F23D70A#32) d2))
          (FloatOps.mulf (Scalar.ofBits .f32 0x3F03126F#32) d3))
        (FloatOps.mulf (Scalar.ofBits .f32 0x3ED1B717#32) d4))
      (Scalar.ofBits .f32 0x3F000000#32))

/-- The whole output array as a function of the whole input array. -/
def tapMix (x : SN.Idx → F .f32) : SN.Idx → F .f32 := fun i =>
  mixOf (x i) (delayed x 11026 i) (delayed x 22051 i) (delayed x 33076 i) (delayed x 44101 i)

end Cert.TapSpec

end
-- ==== Proof.Stitch.lean ====
import Idealize.ShloMosaic.PureOps
import Idealize.ShloMosaic.Lib.ValueIdx

/-! # The look-back window at an index

The body reads each tap as a slice of ONE window: the 45056 look-back samples followed by the 524288 samples
of the current block. Position `p` of that window is look-back sample `p` when `p < 45056` and sample
`p - 45056` of the current block otherwise. -/

noncomputable section

namespace Cert.TapSpec

open Idealize.ShloMosaic Idealize.ShloMosaic.ValueIdx

variable {α : Type}

/-- The stitched window `look ++ cur` read at position `off + j` (`j` an index of the block, `off` at most 45056). -/
def stitched (cur : (⟨1, ![524288]⟩ : Shape).Idx → α) (look : (⟨1, ![45056]⟩ : Shape).Idx → α) (off : Nat) (hoff : off ≤ 45056)
    (j : (⟨1, ![524288]⟩ : Shape).Idx) : α :=
  if h : off + (j 0).val < 45056 then look (ix1 (n := 45056) ⟨off + (j 0).val, h⟩)
  else cur (ix1 (n := 524288) ⟨off + (j 0).val - 45056, by have := (j 0).isLt; simp only [Matrix.cons_val_zero] at this; omega⟩)

end Cert.TapSpec

end
-- ==== Proof.PayBits.lean ====
import proofs.«179438_j73160472920636_2_alg».proof.Proof.Gen.Kernel.Skeleton
import proofs.«179438_j73160472920636_2_alg».proof.Proof.Spec
import proofs.«179438_j73160472920636_2_alg».proof.Proof.Stitch
import Idealize.ShloMosaic.Lib.Pipeline.Value
import Idealize.ShloMosaic.Lib.ValueIdx

/-! # The body's stored value at an index

The body joins the 45056 look-back samples and the 524288 samples of the current block into one window of
569344 samples and reads each tap as a slice of that window at a fixed offset. Read at an index `j` of the
block, the slice at offset `off` is position `off + j` of the window: a look-back sample when
`off + j < 45056`, and sample `off + j - 45056` of the current block otherwise. The stored value at `j` is
then the mix of the current sample and the four taps, term for term. -/

noncomputable section

namespace Cert.Kernel.Hand

open Cert.Kernel Cert.Kernel.Gen Idealize.ShloMosaic Idealize.ShloMosaic.ValueIdx

variable {F : FTy → Type} [FloatOps F]

/-- A slice of the joined window at offset `off`, read at `j`, is the window at position `off + j`. -/
theorem slice_stitch (v6 : Vec F S524288 .f32) (v7 : Vec F S45056 .f32) (off : Nat) (hoff : off ≤ 45056)
    (hs : S569344.Slices ![off] S524288) (hc : Shape.Concatenates [S45056, S524288] S569344 0) (j : S524288.Idx) :
    extractStridedSlice S524288 ![off] (concatenate S569344 0 [⟨S45056, v7⟩, ⟨S524288, v6⟩] hc) hs j
      = Cert.TapSpec.stitched v6 v7 off hoff j := by
  have hj : (j 0).val < 524288 := (j 0).isLt
  have hk : off + (j 0).val < 569344 := by omega
  -- the slice reads the window at the index whose one coordinate is `off + j`
  rw [extractStridedSlice_apply ![off] _ hs j (ix1 (n := 569344) ⟨off + (j 0).val, hk⟩)
    (fun a => by match a with | ⟨0, _⟩ => rfl)]
  unfold Cert.TapSpec.stitched
  split
  · next h =>
    -- below the first extent: the look-back piece at the same coordinate
    exact concatenate_pair_apply_left (0 : Fin S569344.rank) v7 v6 hc _ rfl (ix1 (n := 45056) ⟨off + (j 0).val, h⟩)
      (fun b => by match b with | ⟨0, _⟩ => rfl)
  · next h =>
    -- at or past the first extent: the current block, the first extent less
    exact concatenate_pair_apply_right (0 : Fin S569344.rank) v7 v6 hc _ rfl rfl _
      (fun b hb => by match b with | ⟨0, _⟩ => exact absurd rfl hb)
      (by show off + (j 0).val - 45056 + 45056 = off + (j 0).val; omega)

/-- The stored value at `j`: the mix of the current sample and the window at the four tap offsets. -/
theorem pay2_apply (v6 : Vec F S524288 .f32) (v7 : Vec F S45056 .f32) (j : S524288.Idx) :
    k0_pay2 v6 v7 j = Cert.TapSpec.mixOf (v6 j)
      (Cert.TapSpec.stitched v6 v7 34030 (by decide) j) (Cert.TapSpec.stitched v6 v7 23005 (by decide) j)
      (Cert.TapSpec.stitched v6 v7 11980 (by decide) j) (Cert.TapSpec.stitched v6 v7 955 (by decide) j) := by
  rw [← slice_stitch v6 v7 34030 (by decide) slices_S569344_o34030_S524288 concatenates_S45056_S524288_S569344_d0 j,
    ← slice_stitch v6 v7 23005 (by decide) slices_S569344_o23005_S524288 concatenates_S45056_S524288_S569344_d0 j,
    ← slice_stitch v6 v7 11980 (by decide) slices_S569344_o11980_S524288 concatenates_S45056_S524288_S569344_d0 j,
    ← slice_stitch v6 v7 955 (by decide) slices_S569344_o955_S524288 concatenates_S45056_S524288_S569344_d0 j]
  rfl

end Cert.Kernel.Hand

end
-- ==== Proof.KeyBits.lean ====
import proofs.«179438_j73160472920636_2_alg».proof.Proof.PiecesBits
import proofs.«179438_j73160472920636_2_alg».proof.Proof.Spec
import proofs.«179438_j73160472920636_2_alg».proof.Proof.Stitch
import proofs.«179438_j73160472920636_2_alg».proof.Proof.PayBits
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The blocks of the two arrays, and what the body leaves on the part of a block inside the array

Block `t` of the input is samples `t·524288 …` of the signal, cut at the signal's end; the body's output block,
on the samples inside the array, is block `t` of the multi-tap mix of the WHOLE signal: every tap looks strictly
backward, into the current block or into the look-back samples, both of which hold the signal. -/

variable (m : (ℓ : Loc nD τ sig) → Buf (Elt F) ℓ)

/-- The input signal on core `c`, as launched. -/
abbrev xArr (c : Dev nD) : Cert.TapSpec.SN.Idx → F .f32 := m ((c : Thread nD τ).loc main_arg0)

/-- The mixed signal: what the result array is shown to hold. -/
abbrev yArr (c : Dev nD) : Buf (Elt F) ((c : Thread nD τ).loc main_v0) := Cert.TapSpec.tapMix (xArr m c)

/-- Block `t` of the input, its part inside the array. -/
def xblk (c : Dev nD) (t : Fin cfg0.N) : (win0_0.xblock (grid0.coords t)).Idx → Elt F .f32 :=
  (win0_0.blk t).view.read (Elt F) (m ((c : Thread nD τ).loc main_arg0))
/-- Block `t` of the mixed signal, its part inside the array. -/
def yblk (c : Dev nD) (t : Fin cfg0.N) : (win0_1.xblock (grid0.coords t)).Idx → Elt F .f32 :=
  (win0_1.blk t).view.read (Elt F) (yArr m c)

/-- The staging memrefs at point `t`, and the scratch. -/
abbrev ms0 (t : Fin cfg0.N) : Memref sig .tc .vmem S524288 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S524288 .f32 := win0_1.stage (cfg0.slots t 1)
abbrev hs1 (t : Fin cfg0.N) : (ms1 t).IsWhole := hstage0_1 ((cfg0.slots t 1).cast nbuf0_1)
abbrev scM : Memref sig .tc .vmem S45056 .f32 := Memref.whole cc0_scratch0

/-! ## Where a block sits in its array: facts decided once over the grid -/

/-- Block `t` of either window is block index `t`. -/
theorem idx0_0 : ∀ t : Fin cfg0.N, win0_0.index t (0 : Fin 1) = t.val :=
  (by decide +kernel : ∀ t : Fin grid0.N, win0_0.index t (0 : Fin 1) = t.val)
theorem idx0_1 : ∀ t : Fin cfg0.N, win0_1.index t (0 : Fin 1) = t.val :=
  (by decide +kernel : ∀ t : Fin grid0.N, win0_1.index t (0 : Fin 1) = t.val)
/-- The two windows are cut alike at the array's end, -/
theorem xsize_eq : ∀ t : Fin cfg0.N, win0_1.xsize (grid0.coords t) (0 : Fin 1) = win0_0.xsize (grid0.coords t) (0 : Fin 1) :=
  (by decide +kernel : ∀ t : Fin grid0.N, win0_1.xsize (grid0.coords t) (0 : Fin 1) = win0_0.xsize (grid0.coords t) (0 : Fin 1))
/-- and the part of block `t` inside the array ends inside the array. -/
theorem xsize_inb : ∀ t : Fin cfg0.N, t.val * 524288 + win0_0.xsize (grid0.coords t) (0 : Fin 1) ≤ 26460000 :=
  (by decide +kernel : ∀ t : Fin grid0.N, t.val * 524288 + win0_0.xsize (grid0.coords t) (0 : Fin 1) ≤ 26460000)
/-- At a later point the look-back samples end where the point's block starts. -/
theorem off1_eq : ∀ t : Fin cfg0.N, t.val = 0 ∨ k0_off1 (grid0.coords t) (0 : Fin 1) + 45056 = t.val * 524288 :=
  (by decide +kernel : ∀ t : Fin grid0.N, t.val = 0 ∨ k0_off1 (grid0.coords t) (0 : Fin 1) + 45056 = t.val * 524288)

/-! ## The blocks read at an index -/

/-- The input buffer after the fetch of block `t`, at a position inside the array's part: the signal at
    `t·524288` plus the position. -/
theorem xfill_apply (c : Dev nD) (t : Fin cfg0.N) (d0 : S524288.Idx → Elt F .f32) (p : S524288.Idx)
    (hp : (p 0).val < win0_0.xsize (grid0.coords t) (0 : Fin 1)) (k : Cert.TapSpec.SN.Idx)
    (hk : (k 0).val = t.val * 524288 + (p 0).val) :
    win0_0.fill (grid0.coords t) d0 (xblk m c t) p = xArr m c k := by
  have hm : win0_0.moved (grid0.coords t) p = true :=
    (win0_0.moved_iff (grid0.coords t) p).mpr fun a => by match a with | ⟨0, _⟩ => exact hp
  unfold Window.fill
  rw [dif_pos hm]
  unfold xblk
  rw [View.read_apply]
  show m ((c : Thread nD τ).loc main_arg0) _ = m ((c : Thread nD τ).loc main_arg0) k
  congr 1
  funext a
  apply Fin.ext
  match a with
  | ⟨0, _⟩ =>
    show win0_0.index t (0 : Fin 1) * 524288 + 1 * (p 0).val = (k 0).val
    rw [idx0_0, hk]; omega

/-- Block `t` of the mixed signal at an index: the mix at `t·524288` plus the index. -/
theorem yblk_apply (c : Dev nD) (t : Fin cfg0.N) (j : (win0_1.xblock (grid0.coords t)).Idx) (k : Cert.TapSpec.SN.Idx)
    (hk : (k 0).val = t.val * 524288 + (j (0 : Fin 1)).val) :
    yblk m c t j = Cert.TapSpec.tapMix (xArr m c) k := by
  unfold yblk
  rw [View.read_apply]
  show Cert.TapSpec.tapMix (xArr m c) _ = Cert.TapSpec.tapMix (xArr m c) k
  congr 1
  funext a
  apply Fin.ext
  match a with
  | ⟨0, _⟩ =>
    show win0_1.index t (0 : Fin 1) * 524288 + 1 * (j (0 : Fin 1)).val = (k 0).val
    rw [idx0_1, hk]; omega

/-- The look-back samples at an index: the signal at the transfer's offset plus the index. -/
theorem lookBack_apply (c : Dev nD) (i : grid0.Coords) (hc2 : k0_cond2 i = 1#1) (p : S45056.Idx) (k : Cert.TapSpec.SN.Idx)
    (hk : (k 0).val = k0_off1 i (0 : Fin 1) + (p 0).val) :
    lookBack c i hc2 (m ((c : Thread nD τ).loc main_arg0)) p = xArr m c k := by
  unfold lookBack
  rw [View.read_apply]
  show m ((c : Thread nD τ).loc main_arg0) _ = m ((c : Thread nD τ).loc main_arg0) k
  congr 1
  funext a
  apply Fin.ext
  match a with
  | ⟨0, _⟩ =>
    show k0_off1 i (0 : Fin 1) + 1 * (p 0).val = (k 0).val
    rw [hk]; omega

/-! ## One tap

Position `off + j` of the window `look ++ cur`, with `off = 45056 - s`, is the signal `s` samples before the
block's sample `j`: in the current block when `s ≤ j`, and in the look-back samples otherwise — which are zero at
the first block, where the signal has not started, and the signal's own at a later one. -/

/-- The stitched window at a tap's offset is the signal delayed by the tap, given what the current block and the
    look-back samples hold. `T` is the array index of the block's first sample, `j0` the sample's position in it. -/
theorem tap_eq (x : Cert.TapSpec.SN.Idx → F .f32) (X : S524288.Idx → F .f32) (look : S45056.Idx → F .f32)
    (T j0 s off : Nat) (hoff : off ≤ 45056) (hs : off + s = 45056) (p : S524288.Idx) (k : Cert.TapSpec.SN.Idx)
    (hp : (p 0).val = j0) (hk : (k 0).val = T + j0)
    (hX : ∀ (q : S524288.Idx) (k' : Cert.TapSpec.SN.Idx), (q 0).val ≤ j0 → (k' 0).val = T + (q 0).val → X q = x k')
    (hL : (T = 0 ∧ ∀ q, look q = Scalar.ofBits .f32 0x00000000#32) ∨
      (45056 ≤ T ∧ ∀ (q : S45056.Idx) (k' : Cert.TapSpec.SN.Idx), (k' 0).val + 45056 = T + (q 0).val → look q = x k')) :
    Cert.TapSpec.stitched X look off hoff p = Cert.TapSpec.delayed x s k := by
  unfold Cert.TapSpec.stitched Cert.TapSpec.delayed
  by_cases h1 : off + (p 0).val < 45056
  · rw [dif_pos h1]
    rcases hL with ⟨hT, hz⟩ | ⟨hT, hl⟩
    · rw [dif_neg (by omega), hz]
    · rw [dif_pos (by omega)]
      refine hl _ _ ?_
      show (k 0).val - s + 45056 = T + (off + (p 0).val)
      omega
  · rw [dif_neg h1, dif_pos (by omega)]
    refine hX _ _ ?_ ?_
    · show off + (p 0).val - 45056 ≤ j0
      omega
    · show (k 0).val - s = T + (off + (p 0).val - 45056)
      omega

/-- The body's stored value at a sample of the block is the mix of the whole signal at the sample's array index,
    given what the current block and the look-back samples hold. -/
theorem pay2_tapMix (x : Cert.TapSpec.SN.Idx → F .f32) (X : Vec F S524288 .f32) (look : Vec F S45056 .f32) (T : Nat)
    (p : S524288.Idx) (k : Cert.TapSpec.SN.Idx) (hk : (k 0).val = T + (p 0).val)
    (hX : ∀ (q : S524288.Idx) (k' : Cert.TapSpec.SN.Idx), (q 0).val ≤ (p 0).val → (k' 0).val = T + (q 0).val → X q = x k')
    (hL : (T = 0 ∧ ∀ q, look q = Scalar.ofBits .f32 0x00000000#32) ∨
      (45056 ≤ T ∧ ∀ (q : S45056.Idx) (k' : Cert.TapSpec.SN.Idx), (k' 0).val + 45056 = T + (q 0).val → look q = x k')) :
    k0_pay2 X look p = Cert.TapSpec.tapMix x k := by
  rw [pay2_apply]
  unfold Cert.TapSpec.tapMix
  rw [hX p k (Nat.le_refl _) hk,
    tap_eq x X look T (p 0).val 11026 34030 (by decide) rfl p k rfl hk hX hL,
    tap_eq x X look T (p 0).val 22051 23005 (by decide) rfl p k rfl hk hX hL,
    tap_eq x X look T (p 0).val 33076 11980 (by decide) rfl p k rfl hk hX hL,
    tap_eq x X look T (p 0).val 44101 955 (by decide) rfl p k rfl hk hX hL]

/-- At the first point, whatever fills the input buffer past the array's end, the output buffer's part inside the
    array is block 0 of the mixed signal. -/
theorem cut_outA (c : Dev nD) (q : PosShare TreeShare) (t : Fin cfg0.N) (ht : t.val = 0)
    (hc1 : condFirst (grid0.coords t)) (hc2 : ¬ k0_cond2 (grid0.coords t) = 1#1) (d0 : S524288.Idx → Elt F .f32) :
    win0_1.cut (grid0.coords t) (outA c q (grid0.coords t) (ms0 t) (hs0 t) (ms1 t) (hs1 t) scM (Memref.isWhole_whole _) hc1 hc2
      (win0_0.fill (grid0.coords t) d0 (xblk m c t)) (m ((c : Thread nD τ).loc main_arg0))) = yblk m c t := by
  rw [outA_eq]
  funext j
  -- the sample lies in the part of the block inside the array, so its array index is in range
  have hj : (j (0 : Fin 1)).val < win0_0.xsize (grid0.coords t) (0 : Fin 1) := by
    have := (j (0 : Fin 1)).isLt
    rw [← xsize_eq t]; exact this
  have hb := xsize_inb t
  have hkb : t.val * 524288 + (j (0 : Fin 1)).val < 26460000 := by omega
  refine (pay2_tapMix (xArr m c) _ _ (t.val * 524288) (win0_1.xinj (grid0.coords t) j)
    (ValueIdx.ix1 (n := 26460000) ⟨t.val * 524288 + (j (0 : Fin 1)).val, hkb⟩) rfl
    (fun q' k' hq hk' => xfill_apply m c t d0 q' (Nat.lt_of_le_of_lt hq hj) k' hk')
    (Or.inl ⟨by omega, fun _ => rfl⟩)).trans (yblk_apply m c t j _ rfl).symm

/-- At a later point likewise, the look-back samples being the input's own. -/
theorem cut_outB (c : Dev nD) (q : PosShare TreeShare) (t : Fin cfg0.N) (ht : t.val ≠ 0)
    (hc1 : ¬ condFirst (grid0.coords t)) (hc2 : k0_cond2 (grid0.coords t) = 1#1) (d0 : S524288.Idx → Elt F .f32) :
    win0_1.cut (grid0.coords t) (outB c q (grid0.coords t) (ms0 t) (hs0 t) (ms1 t) (hs1 t) scM (Memref.isWhole_whole _) hc1 hc2
      (win0_0.fill (grid0.coords t) d0 (xblk m c t)) (m ((c : Thread nD τ).loc main_arg0))) = yblk m c t := by
  rw [outB_eq]
  funext j
  -- the sample lies in the part of the block inside the array, so its array index is in range
  have hj : (j (0 : Fin 1)).val < win0_0.xsize (grid0.coords t) (0 : Fin 1) := by
    have := (j (0 : Fin 1)).isLt
    rw [← xsize_eq t]; exact this
  have hb := xsize_inb t
  have hkb : t.val * 524288 + (j (0 : Fin 1)).val < 26460000 := by omega
  -- the look-back samples end where the block starts
  have ho : k0_off1 (grid0.coords t) (0 : Fin 1) + 45056 = t.val * 524288 := (off1_eq t).resolve_left ht
  refine (pay2_tapMix (xArr m c) _ _ (t.val * 524288) (win0_1.xinj (grid0.coords t) j)
    (ValueIdx.ix1 (n := 26460000) ⟨t.val * 524288 + (j (0 : Fin 1)).val, hkb⟩) rfl
    (fun q' k' hq hk' => xfill_apply m c t d0 q' (Nat.lt_of_le_of_lt hq hj) k' hk')
    (Or.inr ⟨by omega, fun q' k' hk' => lookBack_apply m c (grid0.coords t) hc2 q' k' (by omega)⟩)).trans
    (yblk_apply m c t j _ rfl).symm

end Cert.Kernel.Hand

end
-- ==== Proof.ObligBits.lean ====
import proofs.«179438_j73160472920636_2_alg».proof.Proof.KeyBits
import Idealize.ShloMosaic.Lib.Pipeline.Regions
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The pipeline's proof data, the body obligation and the launch

The input array is both the pipeline's first window and the source of the body's own look-back transfer. The
pipeline holds it at one half of the full share and the body's invariant at the other half: both only read it. -/

variable (m : (ℓ : Loc nD τ sig) → Buf (Elt F) ℓ) (ρ : Dev nD → PrngReg)

/-- The pipeline library's algebra is the left component of the certificate's. -/
abbrev EP : Emb (UR sig nD τ) (MT nD τ sig Unit (Elt F) ℕ (Pipeline.UD sig nD τ) ℕ) := embL

/-- The two halves of the full share. -/
abbrev qL : PosShare TreeShare := (fullShare : PosShare TreeShare).left
abbrev qR : PosShare TreeShare := (fullShare : PosShare TreeShare).right

/-- The word that fills a staging buffer past the array's end in the proof data (nothing reads it). -/
abbrev zw : Elt F .f32 := Scalar.ofBits .f32 0x00000000#32

def xblk8 (c : Dev nD) (t : Fin cfg0.N) : S524288.Idx → Elt F .f32 := win0_0.fill (grid0.coords t) (fun _ => zw) (xblk m c t)
def yblk8 (c : Dev nD) (t : Fin cfg0.N) : S524288.Idx → Elt F .f32 := win0_1.fill (grid0.coords t) (fun _ => zw) (yblk m c t)

/-- The invariant between points: the scratch at some contents, the body's semaphore at zero, and the input array at
    the right half share. -/
def ΦH (c : Dev nD) : sProp 𝕄 :=
  iprop((∃ d, owns (c : Thread nD τ) scM fullShare d) ∗ semVal ((c : Thread nD τ), SemLoc.dma 4) 0
    ∗ hbPt c qR hbM (m ((c : Thread nD τ).loc main_arg0)))

/-- The proof data: the arrays as launched; after the body the input's buffer at its block and the output's at the
    mixed signal's block, each on the part inside the array; the input array at the left half share. -/
def dats (_ : Fin 1) (c : Dev nD) : Dat τ (Elt F) Unit ℕ (Pipeline.UD sig nD τ) ℕ cfg0 c where
  A w := m ((cfg0.win w).arr.view.loc (c : Thread nD τ))
  after w t := match w with
    | ⟨0, _⟩ => xblk8 m c t
    | ⟨1, _⟩ => yblk8 m c t
  Φ _ := ΦH m c
  q _ := qL
  owed _ := 0

/-- What the body finds in the input's buffer: the block just fetched, anything past the array's end. -/
theorem before_0 (c : Dev nD) (t : Fin cfg0.N) (d) :
    (dats m 0 c).before (0 : Fin 2) t d = win0_0.fill (grid0.coords t) d (xblk m c t) := by
  unfold Dat.before; rw [if_pos (fetch0_0 t)]; rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) (xblk8 m c t))))
    ∗ (∃ d, owns (c : Thread nD τ) (ms1 t) fullShare (win0_1.fill (grid0.coords t) d (win0_1.cut (grid0.coords t) (yblk8 m c t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = ΦH m c from rfl, show (dats m 0 c).Φ t.castSucc = ΦH m c from rfl]
  unfold ΦH Dat.owesAt Pipeline.owesWithin
  rw [show (dats m 0 c).owed t.castSucc = 0 from rfl, show (dats m 0 c).owed t.succ = 0 from rfl]
  have hx : win0_0.cut (grid0.coords t) (xblk8 m c t) = xblk m c t := win0_0.cut_fill _ _ _
  have hy : win0_1.cut (grid0.coords t) (yblk8 m c t) = yblk m c t := win0_1.cut_fill _ _ _
  rw [hx, hy]
  iintro ⟨⟨HS, Hq, Hh⟩, ⟨%W, -, HW⟩, ⟨%d0, H0⟩, ⟨%d1, H1⟩⟩
  rw [before_0 m c t d0]
  by_cases ht : t.val = 0
  · have hc1 : condFirst (grid0.coords t) := (hcondFirst t).mpr ht
    have hc2 : ¬ k0_cond2 (grid0.coords t) = 1#1 := fun h => (hcondLater t).mp h ht
    iapply ((kernelRunA c qR (grid0.coords t) (ms0 t) (hs0 t) (ms1 t) (hs1 t) scM (Memref.isWhole_whole _) hc1 hc2
      (win0_0.fill (grid0.coords t) d0 (xblk m c t)) (m ((c : Thread nD τ).loc main_arg0))).2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hq Hh]
    · isplitl [HS]; · iexact HS
      isplitl [Hq]; · iexact Hq
      iexact Hh
    isplitl [HW']
    · iexists W'; isplitr; · ipureintro; exact fun _ _ => Or.inl trivial
      iexact HW'
    isplitl [H0]; · iexists d0; iexact H0
    iexists (outA c qR (grid0.coords t) (ms0 t) (hs0 t) (ms1 t) (hs1 t) scM (Memref.isWhole_whole _) hc1 hc2
      (win0_0.fill (grid0.coords t) d0 (xblk m c t)) (m ((c : Thread nD τ).loc main_arg0)))
    rw [← cut_outA m c qR t ht hc1 hc2 d0, win0_1.fill_cut]
    unfold owns; iexists _; isplitr
    swap; · iexact H1
    ipureintro; exact View.read_writes_of_cover _ _ _ _ _ (coverA c _ _ _ _ _ _ _ _ _ _ _ _)
  · have hc1 : ¬ condFirst (grid0.coords t) := fun h => ht ((hcondFirst t).mp h)
    have hc2 : k0_cond2 (grid0.coords t) = 1#1 := (hcondLater t).mpr ht
    iapply ((kernelRunB c qR (grid0.coords t) (ms0 t) (hs0 t) (ms1 t) (hs1 t) scM (Memref.isWhole_whole _) hc1 hc2
      (win0_0.fill (grid0.coords t) d0 (xblk m c t)) (m ((c : Thread nD τ).loc main_arg0))).2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hq Hh]
    · isplitl [HS]; · iexact HS
      isplitl [Hq]; · iexact Hq
      iexact Hh
    isplitl [HW']
    · iexists W'; isplitr; · ipureintro; exact fun _ _ => Or.inl trivial
      iexact HW'
    isplitl [H0]; · iexists d0; iexact H0
    iexists (outB c qR (grid0.coords t) (ms0 t) (hs0 t) (ms1 t) (hs1 t) scM (Memref.isWhole_whole _) hc1 hc2
      (win0_0.fill (grid0.coords t) d0 (xblk m c t)) (m ((c : Thread nD τ).loc main_arg0)))
    rw [← cut_outB m c qR t ht hc1 hc2 d0, win0_1.fill_cut]
    unfold owns; iexists _; isplitr
    swap; · iexact H1
    ipureintro; exact View.read_writes_of_cover _ _ _ _ _ (coverB c _ _ _ _ _ _ _ _ _ _ _ _)

/-- The library's body obligation, at every point: both windows are stated on the part inside the array. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.RunBits.lean ====
import proofs.«179438_j73160472920636_2_alg».proof.Proof.ObligBits
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The launch: @main is the one region -/

variable (m : (ℓ : Loc nD τ sig) → Buf (Elt F) ℓ) (ρ : Dev nD → PrngReg)

/-- The body's own semaphore: the one cell of its scratch semaphore array. -/
abbrev osem : Fin 1 → SemLoc sig := fun _ => SemLoc.dma 4
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 4) 0 := by
  rw [Pipeline.ownSems0_eq_of_list c osem [0] (by decide) (by decide)]; rfl

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)
/-- The buffers as launched. -/
abbrev Vm (c : Dev nD) (b : Ref sig .tc) : Buf (Elt F) ((c : Thread nD τ).loc b) := m ((c : Thread nD τ).loc b)

/-- An array's contents after the run, as the library computes them. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

abbrev Tₙ (c : Dev nD) : sProp 𝕄 := (dats m 0 c).arrays ((dats m 0 c).arrAt · cfg0.N)

/-- The pipeline's arrays, each a whole buffer held at its share. -/
theorem arrays_eq' (c : Dev nD) (G : (w : Fin cfg0.W) → Buf (Elt F) ((cfg0.win w).arr.view.loc (c : Thread nD τ))) :
    (dats m 0 c).arrays G = bigSep Finset.univ fun w : Fin cfg0.W => (((c : Thread nD τ).loc (Pipeline.arrRef spec0 w)) ↦{(dats m 0 c).share w} G w : sProp 𝕄) := by
  unfold Dat.arrays
  exact bigSep_congr fun w _ => by rw [(launch0.arr_whole w).set_eq_univ]

set_option backward.isDefEq.respectTransparency.types false in
def reg0 : Pipeline.RegionSeg (pcfgs (F := F)) adm (dats m) () defs₀ Variants.none L lv 0 where
  win := launch0.win.to₀
  block_pos := launch0.block_pos
  stage_whole := launch0.stage_whole
  K := Fin 1
  osem := osem
  ho := ownSemFacts
  hbody c := body_obligation m c
  hwaits := Pipeline.hwaits_of_owed_zero _ _ _ _ L lv 0 fun _ _ => rfl
  pre c := iprop(unscopedBufs c (Vm m c) ∗ R c)
  post c := iprop(Tₙ m c ∗ R c)
  X c := iprop(semVal ((c : Thread nD τ), SemLoc.dma 4) 0 ∗ hbPt c qR hbM (m ((c : Thread nD τ).loc main_arg0)))
  Y c := iprop(emp)
  Z c := iprop(emp)
  hentry c := by
    rw [ownSems0_eq, arrays_eq' m c, bigSep_W0]
    have hsplit : (unscopedBufs c (Vm m c) : sProp 𝕄) ⊢ iprop((((c : Thread nD τ).loc main_arg0) ↦{fullShare} Vm m c main_arg0) ∗ (((c : Thread nD τ).loc main_v0) ↦{fullShare} Vm m c main_v0)) := by
      rw [Pipeline.unscopedBufs_split (Pipeline.pin (pcfgs (F := F)) adm) 0 launch0.win.arr_unscoped launch0.win.arr_inj c (Vm m c), bigSep_W0]
      iintro ⟨⟨H0, H1⟩, -⟩; isplitl [H0] <;> iassumption
    iintro ⟨⟨Hub, HO⟩, Hos, -⟩
    ihave H := hsplit $$ Hub
    icases H with ⟨H0, H1⟩
    ihave Hs := (pointsTo_share (PosShare.mem_left_op_right fullShare)).1 $$ H0
    icases Hs with ⟨HL, HR⟩
    imodintro
    isplitl [HL H1]
    · isplitl [HL]
      · iexact HL
      · iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hos HR]
    · isplitl [Hos]; · iexact Hos
      iexact HR
    iempintro
  hin c := by
    rw [show (dats m 0 c).Φ 0 = ΦH m c from rfl, scopedRest0_eq]; unfold ΦH
    simp only [owns_whole]
    iintro ⟨⟨Hq, Hh⟩, -, Hr⟩
    isplitl [Hr]; · iexact Hr
    isplitl [Hq] <;> iassumption
  hout c := by
    rw [ownSems0_eq, show (dats m 0 c).Φ (Fin.last cfg0.N) = ΦH m c from rfl, scopedRest0_eq]; unfold ΦH
    simp only [owns_whole]
    iintro ⟨Hr, Hq, -⟩
    isplitr; · iempintro
    isplitl [Hq] <;> iassumption
  hexit c := by
    iintro ⟨Ha, HO, -, -⟩
    imodintro
    isplitl [Ha]; · iexact Ha
    unfold Pipeline.Dat.owesAt Pipeline.owesWithin
    icases HO with ⟨%W, -, HO⟩; iexists W; iexact HO

abbrev segs : List (Pipeline.Seg (pcfgs (F := F)) adm (dats m) () defs₀ Variants.none L lv) := [.region (reg0 m)]

set_option backward.isDefEq.respectTransparency.types false in
/-- From any memory with zero counters every weakly fair execution of @main terminates, and both arrays end at
    what the pipeline library computes from the proof data. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (reg0 m) c])
    (by simp only [Pipeline.Seg.pipes_region, Pipeline.Seg.pipes_nil]; decide) (O₀ := 0) (hL := fun _ _ => rfl) (G := fun _ => iprop(emp)) (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (Vm m c) ∗ R c)) (Tₙ := Tₙ m)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ w : Fin cfg0.W, s.mem ((cfg0.win w).arr.view.loc (c : Thread nD τ)) = finalA m c w)
    (hfin := fun c s' => by
      dsimp only [Tₙ]; rw [arrays_eq' m c, bigSep_W0]
      iintro ⟨⟨H0, H1⟩, HSI⟩
      icombine HSI H0 gives %h0
      icombine HSI H1 gives %h1
      imodintro
      isplitr
      · ipureintro; intro w
        match w with
        | ⟨0, _⟩ => exact Buf.eq_of_forall_mem_univ h0
        | ⟨1, _⟩ => exact Buf.eq_of_forall_mem_univ h1
      iexact HSI)
    (hQ := fun _ h => h)

end Cert.Kernel.Hand

end
-- ==== Proof.FinalBits.lean ====
import proofs.«179438_j73160472920636_2_alg».proof.Proof.ObligBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-! ## The two arrays after the run

The input window's array is never written back, so it holds what it held at launch. The output window's blocks,
cut at the array's end, tile the array: sample `i` lies in block `i / 524288`, one of the grid's 51 points since
`50·524288 ≤ 26460000 - 1 < 51·524288`. Every point writes its block back, and what it writes is that block of the
mixed signal; so the output array ends holding the mixed signal. -/

/-- The input array after the run is the input array as launched. -/
theorem final_in (c : Dev nD) :
    (dats (F := F) m 0 c).arrAt (0 : Fin 2) cfg0.N = m ((c : Thread nD τ).loc main_arg0) := by
  rw [(dats (F := F) m 0 c).arrAt_in (0 : Fin 2) rfl cfg0.N]
  rfl

/-- The output's block index at point `t` is `t`. -/
theorem index_out : ∀ t : Fin cfg0.N, win0_1.index t (0 : Fin 1) = t.val :=
  (by decide +kernel : ∀ t : Fin grid0.N, win0_1.index t (0 : Fin 1) = t.val)

/-- The output's block at point `t` ends at `(t+1)·524288` or at the array's end, whichever comes first. -/
theorem xsize_out : ∀ t : Fin cfg0.N,
    t.val * 524288 + win0_1.xsize (grid0.coords t) (0 : Fin 1) = min ((t.val + 1) * 524288) 26460000 :=
  (by decide +kernel : ∀ t : Fin grid0.N,
    t.val * 524288 + win0_1.xsize (grid0.coords t) (0 : Fin 1) = min ((t.val + 1) * 524288) 26460000)

/-- A sample is in point `t`'s block iff its coordinate is from `t·524288` up to the block's end inside the array. -/
theorem mem_blk_out (t : Fin cfg0.N) (i : S26460000.Idx) :
    i ∈ (win0_1.blk t).view.set ↔ t.val * 524288 ≤ (i 0).val ∧ (i 0).val < min ((t.val + 1) * 524288) 26460000 := by
  show i ∈ ((View.whole main_v0).slice (win0_1.rect t)).set ↔ _
  rw [View.set_slice_whole, Rect.mem_set_unit]
  have hi := index_out t
  have hx := xsize_out t
  constructor
  · intro h
    have h0 := h 0
    change win0_1.index t 0 * 524288 ≤ (i 0).val
      ∧ (i 0).val < win0_1.index t 0 * 524288 + win0_1.xsize (grid0.coords t) 0 at h0
    rw [hi] at h0
    omega
  · intro h a
    match a with
    | ⟨0, _⟩ =>
      change win0_1.index t 0 * 524288 ≤ (i 0).val
        ∧ (i 0).val < win0_1.index t 0 * 524288 + win0_1.xsize (grid0.coords t) 0
      rw [hi]
      omega

/-- What point `t` writes back is block `t` of the mixed signal. -/
theorem flushed_out (c : Dev nD) (t : Fin cfg0.N) :
    (dats (F := F) m 0 c).flushed (1 : Fin 2) t = ((cfg0.win 1).blk t).view.read (Elt F) (yArr m c) := by
  show win0_1.cut (grid0.coords t) ((dats (F := F) m 0 c).after (1 : Fin 2) t) = _
  have h : (dats (F := F) m 0 c).after (1 : Fin 2) t = yblk8 m c t := by dsimp only [dats]
  rw [h]; unfold yblk8; rw [Window.cut_fill]; rfl

/-- Every sample of the array lies in the block of a point that writes back: point `i / 524288`. -/
theorem cover_out (i : S26460000.Idx) :
    ∃ t : Fin cfg0.N, (cfg0.win 1).flush t = true ∧ i ∈ ((cfg0.win 1).blk t).view.set := by
  have hi : (i 0).val < 26460000 := (i 0).isLt
  have hN : grid0.N = 51 := N_0
  have ht : (i 0).val / 524288 < cfg0.N := by show _ < grid0.N; omega
  refine ⟨⟨(i 0).val / 524288, ht⟩, flush0_1 _, (mem_blk_out ⟨(i 0).val / 524288, ht⟩ i).mpr ?_⟩
  show (i 0).val / 524288 * 524288 ≤ (i 0).val ∧ (i 0).val < min (((i 0).val / 524288 + 1) * 524288) 26460000
  omega

/-- The output array after the run is the mixed signal. -/
theorem final_out (c : Dev nD) : (dats (F := F) m 0 c).arrAt (1 : Fin 2) cfg0.N = yArr m c :=
  (dats (F := F) m 0 c).arrAt_eq_of_cover (1 : Fin 2) (yArr m c) (fun t _ => flushed_out m c t) (fun i => cover_out i)

end Cert.Kernel.Hand

end
-- ==== Proof.BodyIdeal.lean ====
import proofs.«179438_j73160472920636_2_alg».proof.Proof.Gen.KernelIdeal.Launch
import proofs.«179438_j73160472920636_2_alg».proof.Proof.Gen.KernelIdeal.Skeleton
import proofs.«179438_j73160472920636_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The body of the tap-delay kernel, run once per control case

At the first grid point the look-back scratch is zeroed; at every later point it is filled from the
`45056` samples of the input that precede the point's block, by a transfer the body starts and waits
for itself. Both cases then load the current block and the scratch, and store the mixed block. -/

/-- The first branch's condition: the grid coordinate is zero. -/
abbrev condFirst (i : grid0.Coords) : Prop := (Scalar.cmpi .ne (Scalar.extui (Scalar.cmpi .eq (BitVec.ofNat 32 (i 0).val) 0#32)) 0#32) = 1#1

/-- The two conditions over the grid: the first holds at point 0 only, the second everywhere else. -/
theorem hcondFirst : ∀ t : Fin cfg0.N, condFirst (grid0.coords t) ↔ t.val = 0 :=
  (by decide +kernel : ∀ t : Fin grid0.N, condFirst (grid0.coords t) ↔ t.val = 0)
theorem hcondLater : ∀ t : Fin cfg0.N, k0_cond2 (grid0.coords t) = 1#1 ↔ t.val ≠ 0 :=
  (by decide +kernel : ∀ t : Fin grid0.N, k0_cond2 (grid0.coords t) = 1#1 ↔ t.val ≠ 0)

/-- The operand left in HBM, whole: the input array itself. -/
abbrev hbM : Memref sig .tc .hbm S26460000 .f32 := Memref.whole main_arg0
abbrev HbBuf (c : Dev nD) {sp : Space} {S : Shape} {e : EltTy} (M : Memref sig .tc sp S e) : Type := Buf (Elt F) (M.view.loc (c : Thread nD τ))
/-- The input array held whole at share `q`. -/
abbrev hbPt (c : Dev nD) (q : PosShare TreeShare) {sp : Space} {S : Shape} {e : EltTy} (M : Memref sig .tc sp S e) (f : HbBuf (F := F) c M) : sProp 𝕄 :=
  M.view.loc (c : Thread nD τ) ↦{q} f

set_option maxHeartbeats 1000000 in
/-- The body at the first point: the scratch is overwritten with zeros, nothing is transferred. The pieces the
    output's buffer ends with are found by the run. -/
noncomputable def kernelRunA (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1)
    (x0 : Vec F S524288 .f32) (fh0 : HbBuf (F := F) c hbM) :
    { L1 : List (View.Piece (Elt F) S524288 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ semVal ((c : Thread nD τ), SemLoc.dma 4) 0 ∗ hbPt c q hbM fh0 ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ d, owns (c : Thread nD τ) arg4 fullShare d) ∗ semVal ((c : Thread nD τ), SemLoc.dma 4) 0 ∗ hbPt c q hbM fh0 ∗ (∃ W', owes (c : Thread nD τ) 0 W')) -∗ K ⟨⟩))
          ⊢ wp frame (wpE (defs₀ (F := F)) Variants.none c none) Set.univ (cc0__tap_delay_kernel i arg1 harg1 (Memref.whole main_arg0) (Memref.isWhole_whole _) arg3 harg3 arg4 harg4 cc0_scratch1) K } := by
  refine ⟨?_, fun W K => ?run⟩
  case run =>
    simp only [cc0__tap_delay_kernel_eq_skeleton]; unfold cc0__tap_delay_kernel_skel
    unfold owns
    iintro ⟨⟨%f0, %hf0, H0⟩, ⟨%d1, %f1, -, H1⟩, ⟨%ds0, %fs0, -, HS0⟩, Hq0, Hh0, HW, Hk⟩
    obtain rfl := harg1.eq_unread hf0
    sl_exec (disch := first | exact hc1 | exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0]; · iexact Hq0
    isplitl [Hh0]; · iexact Hh0
    iexists _; iexact HW

set_option maxHeartbeats 1000000 in
/-- The body at a later point: the scratch is filled by the body's own transfer out of the input array, which is
    lent to the transfer at the share held and handed back by the wait. -/
noncomputable def kernelRunB (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1)
    (x0 : Vec F S524288 .f32) (fh0 : HbBuf (F := F) c hbM) :
    { L1 : List (View.Piece (Elt F) S524288 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ semVal ((c : Thread nD τ), SemLoc.dma 4) 0 ∗ hbPt c q hbM fh0 ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ d, owns (c : Thread nD τ) arg4 fullShare d) ∗ semVal ((c : Thread nD τ), SemLoc.dma 4) 0 ∗ hbPt c q hbM fh0 ∗ (∃ W', owes (c : Thread nD τ) 0 W')) -∗ K ⟨⟩))
          ⊢ wp frame (wpE (defs₀ (F := F)) Variants.none c none) Set.univ (cc0__tap_delay_kernel i arg1 harg1 (Memref.whole main_arg0) (Memref.isWhole_whole _) arg3 harg3 arg4 harg4 cc0_scratch1) K } := by
  refine ⟨?_, fun W K => ?run⟩
  case run =>
    simp only [cc0__tap_delay_kernel_eq_skeleton]; unfold cc0__tap_delay_kernel_skel
    unfold owns
    iintro ⟨⟨%f0, %hf0, H0⟩, ⟨%d1, %f1, -, H1⟩, ⟨%ds0, %fs0, -, HS0⟩, Hq0, Hh0, HW, Hk⟩
    obtain rfl := harg1.eq_unread hf0
    sl_exec (disch := first | exact hc1 | exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0]; · iexact Hq0
    isplitl [Hh0]; · iexact Hh0
    iexists _; iexact HW

/-- The pieces of either run tile the output block (one whole store), so they cover it. -/
theorem coverA (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1) (x0 : Vec F S524288 .f32) (fh0 : HbBuf (F := F) c hbM) (y : S524288.Idx) :
    ∃ pc ∈ (kernelRunA c q i arg1 harg1 arg3 harg3 arg4 harg4 hc1 hc2 x0 fh0).1, y ∈ pc.1.set :=
  View.cover_of_tiledL (kernelRunA c q i arg1 harg1 arg3 harg3 arg4 harg4 hc1 hc2 x0 fh0).1 S524288.size (by sl_kernel_rfl) y
theorem coverB (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1) (x0 : Vec F S524288 .f32) (fh0 : HbBuf (F := F) c hbM) (y : S524288.Idx) :
    ∃ pc ∈ (kernelRunB c q i arg1 harg1 arg3 harg3 arg4 harg4 hc1 hc2 x0 fh0).1, y ∈ pc.1.set :=
  View.cover_of_tiledL (kernelRunB c q i arg1 harg1 arg3 harg3 arg4 harg4 hc1 hc2 x0 fh0).1 S524288.size (by sl_kernel_rfl) y

/-- One staging buffer of the output window, through which its contents are stated. -/
abbrev VO : View sig .tc .vmem S524288 .f32 := (Memref.whole cc0_stg1_0 : Memref sig .tc .vmem S524288 .f32).view

/-- What each run leaves in the output's staging buffer: its pieces read back over junk. -/
def outA (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1) (x0 : Vec F S524288 .f32) (fh0 : HbBuf (F := F) c hbM) : Vec F S524288 .f32 :=
  VO.read (Elt F) (VO.writes (Elt F) VO.junk (kernelRunA c q i arg1 harg1 arg3 harg3 arg4 harg4 hc1 hc2 x0 fh0).1)
def outB (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1) (x0 : Vec F S524288 .f32) (fh0 : HbBuf (F := F) c hbM) : Vec F S524288 .f32 :=
  VO.read (Elt F) (VO.writes (Elt F) VO.junk (kernelRunB c q i arg1 harg1 arg3 harg3 arg4 harg4 hc1 hc2 x0 fh0).1)

end Cert.KernelIdeal.Hand

end
-- ==== Proof.PiecesIdeal.lean ====
import proofs.«179438_j73160472920636_2_alg».proof.Proof.BodyIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## What each run leaves in the output block, as the body's arithmetic of what it loaded -/

theorem hz1 : (![0] : Fin 1 → Nat) = fun _ => 0 := funext fun a => by fin_cases a; rfl

/-- A load of the whole buffer after one whole-buffer delivery reads what was delivered. -/
theorem readCov_whole_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h; exact View.readCov_unit_zero v rfl inb w

/-- The look-back samples a later point's transfer delivers: the 45056 samples of the input array that end where the
    point's block starts. -/
def lookBack (c : Dev nD) (i : grid0.Coords) (hc2 : k0_cond2 i = 1#1) (fh0 : HbBuf (F := F) c hbM) : Vec F S45056 .f32 :=
  View.read (Elt F) ((Memref.whole main_arg0 : Memref sig .tc .hbm S26460000 .f32).slice (Rect.unit (s := S26460000) (k0_off1 i) S45056.size (k0_off1_inb i hc2)) (fun _ => rfl)).view fh0

/-- At the first point the output block is the body's arithmetic of the current block and a zero look-back. -/
theorem outA_eq (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : condFirst i) (hc2 : ¬ k0_cond2 i = 1#1) (x0 : Vec F S524288 .f32) (fh0 : HbBuf (F := F) c hbM) :
    outA c q i arg1 harg1 arg3 harg3 arg4 harg4 hc1 hc2 x0 fh0 = k0_pay2 x0 (k0_pay1 (F := F)) := by
  unfold outA
  rw [View.read_writes_eq_canon _ _ _ (coverA c q i arg1 harg1 arg3 harg3 arg4 harg4 hc1 hc2 x0 fh0)]
  unfold kernelRunA
  dsimp only
  sl_unfold_words
  rw [View.canon_unit_zero hz1]
  simp only [View.readAt_eq_ld, harg1.read_unread, View.ld_unit_zero (S := S524288) hz1]
  rw [View.readCov_unit_zero (S := S45056) _ hz1]

/-- At a later point it is the same arithmetic of the current block and the delivered look-back samples. -/
theorem outB_eq (c : Dev nD) (q : PosShare TreeShare) (i : grid0.Coords) (arg1 : Memref sig .tc .vmem S524288 .f32) (harg1 : arg1.IsWhole) (arg3 : Memref sig .tc .vmem S524288 .f32) (harg3 : arg3.IsWhole) (arg4 : Memref sig .tc .vmem S45056 .f32) (harg4 : arg4.IsWhole)
    (hc1 : ¬ condFirst i) (hc2 : k0_cond2 i = 1#1) (x0 : Vec F S524288 .f32) (fh0 : HbBuf (F := F) c hbM) :
    outB c q i arg1 harg1 arg3 harg3 arg4 harg4 hc1 hc2 x0 fh0 = k0_pay2 x0 (lookBack c i hc2 fh0) := by
  unfold outB
  rw [View.read_writes_eq_canon _ _ _ (coverB c q i arg1 harg1 arg3 harg3 arg4 harg4 hc1 hc2 x0 fh0)]
  unfold kernelRunB
  dsimp only
  sl_unfold_words
  rw [View.canon_unit_zero hz1]
  simp only [View.readAt_eq_ld, harg1.read_unread, View.ld_unit_zero (S := S524288) hz1]
  rw [readCov_whole_unit_zero _ hz1]
  rfl

end Cert.KernelIdeal.Hand

end
-- ==== Proof.PayIdeal.lean ====
import proofs.«179438_j73160472920636_2_alg».proof.Proof.Gen.KernelIdeal.Skeleton
import proofs.«179438_j73160472920636_2_alg».proof.Proof.Spec
import proofs.«179438_j73160472920636_2_alg».proof.Proof.Stitch
import Idealize.ShloMosaic.Lib.Pipeline.Value
import Idealize.ShloMosaic.Lib.ValueIdx

/-! # The body's stored value at an index

The body joins the 45056 look-back samples and the 524288 samples of the current block into one window of
569344 samples and reads each tap as a slice of that window at a fixed offset. Read at an index `j` of the
block, the slice at offset `off` is position `off + j` of the window: a look-back sample when
`off + j < 45056`, and sample `off + j - 45056` of the current block otherwise. The stored value at `j` is
then the mix of the current sample and the four taps, term for term. -/

noncomputable section

namespace Cert.KernelIdeal.Hand

open Cert.KernelIdeal Cert.KernelIdeal.Gen Idealize.ShloMosaic Idealize.ShloMosaic.ValueIdx

variable {F : FTy → Type} [FloatOps F]

/-- A slice of the joined window at offset `off`, read at `j`, is the window at position `off + j`. -/
theorem slice_stitch (v6 : Vec F S524288 .f32) (v7 : Vec F S45056 .f32) (off : Nat) (hoff : off ≤ 45056)
    (hs : S569344.Slices ![off] S524288) (hc : Shape.Concatenates [S45056, S524288] S569344 0) (j : S524288.Idx) :
    extractStridedSlice S524288 ![off] (concatenate S569344 0 [⟨S45056, v7⟩, ⟨S524288, v6⟩] hc) hs j
      = Cert.TapSpec.stitched v6 v7 off hoff j := by
  have hj : (j 0).val < 524288 := (j 0).isLt
  have hk : off + (j 0).val < 569344 := by omega
  -- the slice reads the window at the index whose one coordinate is `off + j`
  rw [extractStridedSlice_apply ![off] _ hs j (ix1 (n := 569344) ⟨off + (j 0).val, hk⟩)
    (fun a => by match a with | ⟨0, _⟩ => rfl)]
  unfold Cert.TapSpec.stitched
  split
  · next h =>
    -- below the first extent: the look-back piece at the same coordinate
    exact concatenate_pair_apply_left (0 : Fin S569344.rank) v7 v6 hc _ rfl (ix1 (n := 45056) ⟨off + (j 0).val, h⟩)
      (fun b => by match b with | ⟨0, _⟩ => rfl)
  · next h =>
    -- at or past the first extent: the current block, the first extent less
    exact concatenate_pair_apply_right (0 : Fin S569344.rank) v7 v6 hc _ rfl rfl _
      (fun b hb => by match b with | ⟨0, _⟩ => exact absurd rfl hb)
      (by show off + (j 0).val - 45056 + 45056 = off + (j 0).val; omega)

/-- The stored value at `j`: the mix of the current sample and the window at the four tap offsets. -/
theorem pay2_apply (v6 : Vec F S524288 .f32) (v7 : Vec F S45056 .f32) (j : S524288.Idx) :
    k0_pay2 v6 v7 j = Cert.TapSpec.mixOf (v6 j)
      (Cert.TapSpec.stitched v6 v7 34030 (by decide) j) (Cert.TapSpec.stitched v6 v7 23005 (by decide) j)
      (Cert.TapSpec.stitched v6 v7 11980 (by decide) j) (Cert.TapSpec.stitched v6 v7 955 (by decide) j) := by
  rw [← slice_stitch v6 v7 34030 (by decide) slices_S569344_o34030_S524288 concatenates_S45056_S524288_S569344_d0 j,
    ← slice_stitch v6 v7 23005 (by decide) slices_S569344_o23005_S524288 concatenates_S45056_S524288_S569344_d0 j,
    ← slice_stitch v6 v7 11980 (by decide) slices_S569344_o11980_S524288 concatenates_S45056_S524288_S569344_d0 j,
    ← slice_stitch v6 v7 955 (by decide) slices_S569344_o955_S524288 concatenates_S45056_S524288_S569344_d0 j]
  rfl

end Cert.KernelIdeal.Hand

end
-- ==== Proof.KeyIdeal.lean ====
import proofs.«179438_j73160472920636_2_alg».proof.Proof.PiecesIdeal
import proofs.«179438_j73160472920636_2_alg».proof.Proof.Spec
import proofs.«179438_j73160472920636_2_alg».proof.Proof.Stitch
import proofs.«179438_j73160472920636_2_alg».proof.Proof.PayIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The blocks of the two arrays, and what the body leaves on the part of a block inside the array

Block `t` of the input is samples `t·524288 …` of the signal, cut at the signal's end; the body's output block,
on the samples inside the array, is block `t` of the multi-tap mix of the WHOLE signal: every tap looks strictly
backward, into the current block or into the look-back samples, both of which hold the signal. -/

variable (m : (ℓ : Loc nD τ sig) → Buf (Elt F) ℓ)

/-- The input signal on core `c`, as launched. -/
abbrev xArr (c : Dev nD) : Cert.TapSpec.SN.Idx → F .f32 := m ((c : Thread nD τ).loc main_arg0)

/-- The mixed signal: what the result array is shown to hold. -/
abbrev yArr (c : Dev nD) : Buf (Elt F) ((c : Thread nD τ).loc main_v0) := Cert.TapSpec.tapMix (xArr m c)

/-- Block `t` of the input, its part inside the array. -/
def xblk (c : Dev nD) (t : Fin cfg0.N) : (win0_0.xblock (grid0.coords t)).Idx → Elt F .f32 :=
  (win0_0.blk t).view.read (Elt F) (m ((c : Thread nD τ).loc main_arg0))
/-- Block `t` of the mixed signal, its part inside the array. -/
def yblk (c : Dev nD) (t : Fin cfg0.N) : (win0_1.xblock (grid0.coords t)).Idx → Elt F .f32 :=
  (win0_1.blk t).view.read (Elt F) (yArr m c)

/-- The staging memrefs at point `t`, and the scratch. -/
abbrev ms0 (t : Fin cfg0.N) : Memref sig .tc .vmem S524288 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S524288 .f32 := win0_1.stage (cfg0.slots t 1)
abbrev hs1 (t : Fin cfg0.N) : (ms1 t).IsWhole := hstage0_1 ((cfg0.slots t 1).cast nbuf0_1)
abbrev scM : Memref sig .tc .vmem S45056 .f32 := Memref.whole cc0_scratch0

/-! ## Where a block sits in its array: facts decided once over the grid -/

/-- Block `t` of either window is block index `t`. -/
theorem idx0_0 : ∀ t : Fin cfg0.N, win0_0.index t (0 : Fin 1) = t.val :=
  (by decide +kernel : ∀ t : Fin grid0.N, win0_0.index t (0 : Fin 1) = t.val)
theorem idx0_1 : ∀ t : Fin cfg0.N, win0_1.index t (0 : Fin 1) = t.val :=
  (by decide +kernel : ∀ t : Fin grid0.N, win0_1.index t (0 : Fin 1) = t.val)
/-- The two windows are cut alike at the array's end, -/
theorem xsize_eq : ∀ t : Fin cfg0.N, win0_1.xsize (grid0.coords t) (0 : Fin 1) = win0_0.xsize (grid0.coords t) (0 : Fin 1) :=
  (by decide +kernel : ∀ t : Fin grid0.N, win0_1.xsize (grid0.coords t) (0 : Fin 1) = win0_0.xsize (grid0.coords t) (0 : Fin 1))
/-- and the part of block `t` inside the array ends inside the array. -/
theorem xsize_inb : ∀ t : Fin cfg0.N, t.val * 524288 + win0_0.xsize (grid0.coords t) (0 : Fin 1) ≤ 26460000 :=
  (by decide +kernel : ∀ t : Fin grid0.N, t.val * 524288 + win0_0.xsize (grid0.coords t) (0 : Fin 1) ≤ 26460000)
/-- At a later point the look-back samples end where the point's block starts. -/
theorem off1_eq : ∀ t : Fin cfg0.N, t.val = 0 ∨ k0_off1 (grid0.coords t) (0 : Fin 1) + 45056 = t.val * 524288 :=
  (by decide +kernel : ∀ t : Fin grid0.N, t.val = 0 ∨ k0_off1 (grid0.coords t) (0 : Fin 1) + 45056 = t.val * 524288)

/-! ## The blocks read at an index -/

/-- The input buffer after the fetch of block `t`, at a position inside the array's part: the signal at
    `t·524288` plus the position. -/
theorem xfill_apply (c : Dev nD) (t : Fin cfg0.N) (d0 : S524288.Idx → Elt F .f32) (p : S524288.Idx)
    (hp : (p 0).val < win0_0.xsize (grid0.coords t) (0 : Fin 1)) (k : Cert.TapSpec.SN.Idx)
    (hk : (k 0).val = t.val * 524288 + (p 0).val) :
    win0_0.fill (grid0.coords t) d0 (xblk m c t) p = xArr m c k := by
  have hm : win0_0.moved (grid0.coords t) p = true :=
    (win0_0.moved_iff (grid0.coords t) p).mpr fun a => by match a with | ⟨0, _⟩ => exact hp
  unfold Window.fill
  rw [dif_pos hm]
  unfold xblk
  rw [View.read_apply]
  show m ((c : Thread nD τ).loc main_arg0) _ = m ((c : Thread nD τ).loc main_arg0) k
  congr 1
  funext a
  apply Fin.ext
  match a with
  | ⟨0, _⟩ =>
    show win0_0.index t (0 : Fin 1) * 524288 + 1 * (p 0).val = (k 0).val
    rw [idx0_0, hk]; omega

/-- Block `t` of the mixed signal at an index: the mix at `t·524288` plus the index. -/
theorem yblk_apply (c : Dev nD) (t : Fin cfg0.N) (j : (win0_1.xblock (grid0.coords t)).Idx) (k : Cert.TapSpec.SN.Idx)
    (hk : (k 0).val = t.val * 524288 + (j (0 : Fin 1)).val) :
    yblk m c t j = Cert.TapSpec.tapMix (xArr m c) k := by
  unfold yblk
  rw [View.read_apply]
  show Cert.TapSpec.tapMix (xArr m c) _ = Cert.TapSpec.tapMix (xArr m c) k
  congr 1
  funext a
  apply Fin.ext
  match a with
  | ⟨0, _⟩ =>
    show win0_1.index t (0 : Fin 1) * 524288 + 1 * (j (0 : Fin 1)).val = (k 0).val
    rw [idx0_1, hk]; omega

/-- The look-back samples at an index: the signal at the transfer's offset plus the index. -/
theorem lookBack_apply (c : Dev nD) (i : grid0.Coords) (hc2 : k0_cond2 i = 1#1) (p : S45056.Idx) (k : Cert.TapSpec.SN.Idx)
    (hk : (k 0).val = k0_off1 i (0 : Fin 1) + (p 0).val) :
    lookBack c i hc2 (m ((c : Thread nD τ).loc main_arg0)) p = xArr m c k := by
  unfold lookBack
  rw [View.read_apply]
  show m ((c : Thread nD τ).loc main_arg0) _ = m ((c : Thread nD τ).loc main_arg0) k
  congr 1
  funext a
  apply Fin.ext
  match a with
  | ⟨0, _⟩ =>
    show k0_off1 i (0 : Fin 1) + 1 * (p 0).val = (k 0).val
    rw [hk]; omega

/-! ## One tap

Position `off + j` of the window `look ++ cur`, with `off = 45056 - s`, is the signal `s` samples before the
block's sample `j`: in the current block when `s ≤ j`, and in the look-back samples otherwise — which are zero at
the first block, where the signal has not started, and the signal's own at a later one. -/

/-- The stitched window at a tap's offset is the signal delayed by the tap, given what the current block and the
    look-back samples hold. `T` is the array index of the block's first sample, `j0` the sample's position in it. -/
theorem tap_eq (x : Cert.TapSpec.SN.Idx → F .f32) (X : S524288.Idx → F .f32) (look : S45056.Idx → F .f32)
    (T j0 s off : Nat) (hoff : off ≤ 45056) (hs : off + s = 45056) (p : S524288.Idx) (k : Cert.TapSpec.SN.Idx)
    (hp : (p 0).val = j0) (hk : (k 0).val = T + j0)
    (hX : ∀ (q : S524288.Idx) (k' : Cert.TapSpec.SN.Idx), (q 0).val ≤ j0 → (k' 0).val = T + (q 0).val → X q = x k')
    (hL : (T = 0 ∧ ∀ q, look q = Scalar.ofBits .f32 0x00000000#32) ∨
      (45056 ≤ T ∧ ∀ (q : S45056.Idx) (k' : Cert.TapSpec.SN.Idx), (k' 0).val + 45056 = T + (q 0).val → look q = x k')) :
    Cert.TapSpec.stitched X look off hoff p = Cert.TapSpec.delayed x s k := by
  unfold Cert.TapSpec.stitched Cert.TapSpec.delayed
  by_cases h1 : off + (p 0).val < 45056
  · rw [dif_pos h1]
    rcases hL with ⟨hT, hz⟩ | ⟨hT, hl⟩
    · rw [dif_neg (by omega), hz]
    · rw [dif_pos (by omega)]
      refine hl _ _ ?_
      show (k 0).val - s + 45056 = T + (off + (p 0).val)
      omega
  · rw [dif_neg h1, dif_pos (by omega)]
    refine hX _ _ ?_ ?_
    · show off + (p 0).val - 45056 ≤ j0
      omega
    · show (k 0).val - s = T + (off + (p 0).val - 45056)
      omega

/-- The body's stored value at a sample of the block is the mix of the whole signal at the sample's array index,
    given what the current block and the look-back samples hold. -/
theorem pay2_tapMix (x : Cert.TapSpec.SN.Idx → F .f32) (X : Vec F S524288 .f32) (look : Vec F S45056 .f32) (T : Nat)
    (p : S524288.Idx) (k : Cert.TapSpec.SN.Idx) (hk : (k 0).val = T + (p 0).val)
    (hX : ∀ (q : S524288.Idx) (k' : Cert.TapSpec.SN.Idx), (q 0).val ≤ (p 0).val → (k' 0).val = T + (q 0).val → X q = x k')
    (hL : (T = 0 ∧ ∀ q, look q = Scalar.ofBits .f32 0x00000000#32) ∨
      (45056 ≤ T ∧ ∀ (q : S45056.Idx) (k' : Cert.TapSpec.SN.Idx), (k' 0).val + 45056 = T + (q 0).val → look q = x k')) :
    k0_pay2 X look p = Cert.TapSpec.tapMix x k := by
  rw [pay2_apply]
  unfold Cert.TapSpec.tapMix
  rw [hX p k (Nat.le_refl _) hk,
    tap_eq x X look T (p 0).val 11026 34030 (by decide) rfl p k rfl hk hX hL,
    tap_eq x X look T (p 0).val 22051 23005 (by decide) rfl p k rfl hk hX hL,
    tap_eq x X look T (p 0).val 33076 11980 (by decide) rfl p k rfl hk hX hL,
    tap_eq x X look T (p 0).val 44101 955 (by decide) rfl p k rfl hk hX hL]

/-- At the first point, whatever fills the input buffer past the array's end, the output buffer's part inside the
    array is block 0 of the mixed signal. -/
theorem cut_outA (c : Dev nD) (q : PosShare TreeShare) (t : Fin cfg0.N) (ht : t.val = 0)
    (hc1 : condFirst (grid0.coords t)) (hc2 : ¬ k0_cond2 (grid0.coords t) = 1#1) (d0 : S524288.Idx → Elt F .f32) :
    win0_1.cut (grid0.coords t) (outA c q (grid0.coords t) (ms0 t) (hs0 t) (ms1 t) (hs1 t) scM (Memref.isWhole_whole _) hc1 hc2
      (win0_0.fill (grid0.coords t) d0 (xblk m c t)) (m ((c : Thread nD τ).loc main_arg0))) = yblk m c t := by
  rw [outA_eq]
  funext j
  -- the sample lies in the part of the block inside the array, so its array index is in range
  have hj : (j (0 : Fin 1)).val < win0_0.xsize (grid0.coords t) (0 : Fin 1) := by
    have := (j (0 : Fin 1)).isLt
    rw [← xsize_eq t]; exact this
  have hb := xsize_inb t
  have hkb : t.val * 524288 + (j (0 : Fin 1)).val < 26460000 := by omega
  refine (pay2_tapMix (xArr m c) _ _ (t.val * 524288) (win0_1.xinj (grid0.coords t) j)
    (ValueIdx.ix1 (n := 26460000) ⟨t.val * 524288 + (j (0 : Fin 1)).val, hkb⟩) rfl
    (fun q' k' hq hk' => xfill_apply m c t d0 q' (Nat.lt_of_le_of_lt hq hj) k' hk')
    (Or.inl ⟨by omega, fun _ => rfl⟩)).trans (yblk_apply m c t j _ rfl).symm

/-- At a later point likewise, the look-back samples being the input's own. -/
theorem cut_outB (c : Dev nD) (q : PosShare TreeShare) (t : Fin cfg0.N) (ht : t.val ≠ 0)
    (hc1 : ¬ condFirst (grid0.coords t)) (hc2 : k0_cond2 (grid0.coords t) = 1#1) (d0 : S524288.Idx → Elt F .f32) :
    win0_1.cut (grid0.coords t) (outB c q (grid0.coords t) (ms0 t) (hs0 t) (ms1 t) (hs1 t) scM (Memref.isWhole_whole _) hc1 hc2
      (win0_0.fill (grid0.coords t) d0 (xblk m c t)) (m ((c : Thread nD τ).loc main_arg0))) = yblk m c t := by
  rw [outB_eq]
  funext j
  -- the sample lies in the part of the block inside the array, so its array index is in range
  have hj : (j (0 : Fin 1)).val < win0_0.xsize (grid0.coords t) (0 : Fin 1) := by
    have := (j (0 : Fin 1)).isLt
    rw [← xsize_eq t]; exact this
  have hb := xsize_inb t
  have hkb : t.val * 524288 + (j (0 : Fin 1)).val < 26460000 := by omega
  -- the look-back samples end where the block starts
  have ho : k0_off1 (grid0.coords t) (0 : Fin 1) + 45056 = t.val * 524288 := (off1_eq t).resolve_left ht
  refine (pay2_tapMix (xArr m c) _ _ (t.val * 524288) (win0_1.xinj (grid0.coords t) j)
    (ValueIdx.ix1 (n := 26460000) ⟨t.val * 524288 + (j (0 : Fin 1)).val, hkb⟩) rfl
    (fun q' k' hq hk' => xfill_apply m c t d0 q' (Nat.lt_of_le_of_lt hq hj) k' hk')
    (Or.inr ⟨by omega, fun q' k' hk' => lookBack_apply m c (grid0.coords t) hc2 q' k' (by omega)⟩)).trans
    (yblk_apply m c t j _ rfl).symm

end Cert.KernelIdeal.Hand

end
-- ==== Proof.ObligIdeal.lean ====
import proofs.«179438_j73160472920636_2_alg».proof.Proof.KeyIdeal
import Idealize.ShloMosaic.Lib.Pipeline.Regions
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The pipeline's proof data, the body obligation and the launch

The input array is both the pipeline's first window and the source of the body's own look-back transfer. The
pipeline holds it at one half of the full share and the body's invariant at the other half: both only read it. -/

variable (m : (ℓ : Loc nD τ sig) → Buf (Elt F) ℓ) (ρ : Dev nD → PrngReg)

/-- The pipeline library's algebra is the left component of the certificate's. -/
abbrev EP : Emb (UR sig nD τ) (MT nD τ sig Unit (Elt F) ℕ (Pipeline.UD sig nD τ) ℕ) := embL

/-- The two halves of the full share. -/
abbrev qL : PosShare TreeShare := (fullShare : PosShare TreeShare).left
abbrev qR : PosShare TreeShare := (fullShare : PosShare TreeShare).right

/-- The word that fills a staging buffer past the array's end in the proof data (nothing reads it). -/
abbrev zw : Elt F .f32 := Scalar.ofBits .f32 0x00000000#32

def xblk8 (c : Dev nD) (t : Fin cfg0.N) : S524288.Idx → Elt F .f32 := win0_0.fill (grid0.coords t) (fun _ => zw) (xblk m c t)
def yblk8 (c : Dev nD) (t : Fin cfg0.N) : S524288.Idx → Elt F .f32 := win0_1.fill (grid0.coords t) (fun _ => zw) (yblk m c t)

/-- The invariant between points: the scratch at some contents, the body's semaphore at zero, and the input array at
    the right half share. -/
def ΦH (c : Dev nD) : sProp 𝕄 :=
  iprop((∃ d, owns (c : Thread nD τ) scM fullShare d) ∗ semVal ((c : Thread nD τ), SemLoc.dma 4) 0
    ∗ hbPt c qR hbM (m ((c : Thread nD τ).loc main_arg0)))

/-- The proof data: the arrays as launched; after the body the input's buffer at its block and the output's at the
    mixed signal's block, each on the part inside the array; the input array at the left half share. -/
def dats (_ : Fin 1) (c : Dev nD) : Dat τ (Elt F) Unit ℕ (Pipeline.UD sig nD τ) ℕ cfg0 c where
  A w := m ((cfg0.win w).arr.view.loc (c : Thread nD τ))
  after w t := match w with
    | ⟨0, _⟩ => xblk8 m c t
    | ⟨1, _⟩ => yblk8 m c t
  Φ _ := ΦH m c
  q _ := qL
  owed _ := 0

/-- What the body finds in the input's buffer: the block just fetched, anything past the array's end. -/
theorem before_0 (c : Dev nD) (t : Fin cfg0.N) (d) :
    (dats m 0 c).before (0 : Fin 2) t d = win0_0.fill (grid0.coords t) d (xblk m c t) := by
  unfold Dat.before; rw [if_pos (fetch0_0 t)]; rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) (xblk8 m c t))))
    ∗ (∃ d, owns (c : Thread nD τ) (ms1 t) fullShare (win0_1.fill (grid0.coords t) d (win0_1.cut (grid0.coords t) (yblk8 m c t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = ΦH m c from rfl, show (dats m 0 c).Φ t.castSucc = ΦH m c from rfl]
  unfold ΦH Dat.owesAt Pipeline.owesWithin
  rw [show (dats m 0 c).owed t.castSucc = 0 from rfl, show (dats m 0 c).owed t.succ = 0 from rfl]
  have hx : win0_0.cut (grid0.coords t) (xblk8 m c t) = xblk m c t := win0_0.cut_fill _ _ _
  have hy : win0_1.cut (grid0.coords t) (yblk8 m c t) = yblk m c t := win0_1.cut_fill _ _ _
  rw [hx, hy]
  iintro ⟨⟨HS, Hq, Hh⟩, ⟨%W, -, HW⟩, ⟨%d0, H0⟩, ⟨%d1, H1⟩⟩
  rw [before_0 m c t d0]
  by_cases ht : t.val = 0
  · have hc1 : condFirst (grid0.coords t) := (hcondFirst t).mpr ht
    have hc2 : ¬ k0_cond2 (grid0.coords t) = 1#1 := fun h => (hcondLater t).mp h ht
    iapply ((kernelRunA c qR (grid0.coords t) (ms0 t) (hs0 t) (ms1 t) (hs1 t) scM (Memref.isWhole_whole _) hc1 hc2
      (win0_0.fill (grid0.coords t) d0 (xblk m c t)) (m ((c : Thread nD τ).loc main_arg0))).2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hq Hh]
    · isplitl [HS]; · iexact HS
      isplitl [Hq]; · iexact Hq
      iexact Hh
    isplitl [HW']
    · iexists W'; isplitr; · ipureintro; exact fun _ _ => Or.inl trivial
      iexact HW'
    isplitl [H0]; · iexists d0; iexact H0
    iexists (outA c qR (grid0.coords t) (ms0 t) (hs0 t) (ms1 t) (hs1 t) scM (Memref.isWhole_whole _) hc1 hc2
      (win0_0.fill (grid0.coords t) d0 (xblk m c t)) (m ((c : Thread nD τ).loc main_arg0)))
    rw [← cut_outA m c qR t ht hc1 hc2 d0, win0_1.fill_cut]
    unfold owns; iexists _; isplitr
    swap; · iexact H1
    ipureintro; exact View.read_writes_of_cover _ _ _ _ _ (coverA c _ _ _ _ _ _ _ _ _ _ _ _)
  · have hc1 : ¬ condFirst (grid0.coords t) := fun h => ht ((hcondFirst t).mp h)
    have hc2 : k0_cond2 (grid0.coords t) = 1#1 := (hcondLater t).mpr ht
    iapply ((kernelRunB c qR (grid0.coords t) (ms0 t) (hs0 t) (ms1 t) (hs1 t) scM (Memref.isWhole_whole _) hc1 hc2
      (win0_0.fill (grid0.coords t) d0 (xblk m c t)) (m ((c : Thread nD τ).loc main_arg0))).2 W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, ⟨%e1, H1⟩, HS, Hq, Hh, ⟨%W', HW'⟩⟩
    isplitl [HS Hq Hh]
    · isplitl [HS]; · iexact HS
      isplitl [Hq]; · iexact Hq
      iexact Hh
    isplitl [HW']
    · iexists W'; isplitr; · ipureintro; exact fun _ _ => Or.inl trivial
      iexact HW'
    isplitl [H0]; · iexists d0; iexact H0
    iexists (outB c qR (grid0.coords t) (ms0 t) (hs0 t) (ms1 t) (hs1 t) scM (Memref.isWhole_whole _) hc1 hc2
      (win0_0.fill (grid0.coords t) d0 (xblk m c t)) (m ((c : Thread nD τ).loc main_arg0)))
    rw [← cut_outB m c qR t ht hc1 hc2 d0, win0_1.fill_cut]
    unfold owns; iexists _; isplitr
    swap; · iexact H1
    ipureintro; exact View.read_writes_of_cover _ _ _ _ _ (coverB c _ _ _ _ _ _ _ _ _ _ _ _)

/-- The library's body obligation, at every point: both windows are stated on the part inside the array. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.RunIdeal.lean ====
import proofs.«179438_j73160472920636_2_alg».proof.Proof.ObligIdeal
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The launch: @main is the one region -/

variable (m : (ℓ : Loc nD τ sig) → Buf (Elt F) ℓ) (ρ : Dev nD → PrngReg)

/-- The body's own semaphore: the one cell of its scratch semaphore array. -/
abbrev osem : Fin 1 → SemLoc sig := fun _ => SemLoc.dma 4
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 4) 0 := by
  rw [Pipeline.ownSems0_eq_of_list c osem [0] (by decide) (by decide)]; rfl

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)
/-- The buffers as launched. -/
abbrev Vm (c : Dev nD) (b : Ref sig .tc) : Buf (Elt F) ((c : Thread nD τ).loc b) := m ((c : Thread nD τ).loc b)

/-- An array's contents after the run, as the library computes them. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

abbrev Tₙ (c : Dev nD) : sProp 𝕄 := (dats m 0 c).arrays ((dats m 0 c).arrAt · cfg0.N)

/-- The pipeline's arrays, each a whole buffer held at its share. -/
theorem arrays_eq' (c : Dev nD) (G : (w : Fin cfg0.W) → Buf (Elt F) ((cfg0.win w).arr.view.loc (c : Thread nD τ))) :
    (dats m 0 c).arrays G = bigSep Finset.univ fun w : Fin cfg0.W => (((c : Thread nD τ).loc (Pipeline.arrRef spec0 w)) ↦{(dats m 0 c).share w} G w : sProp 𝕄) := by
  unfold Dat.arrays
  exact bigSep_congr fun w _ => by rw [(launch0.arr_whole w).set_eq_univ]

set_option backward.isDefEq.respectTransparency.types false in
def reg0 : Pipeline.RegionSeg (pcfgs (F := F)) adm (dats m) () defs₀ Variants.none L lv 0 where
  win := launch0.win.to₀
  block_pos := launch0.block_pos
  stage_whole := launch0.stage_whole
  K := Fin 1
  osem := osem
  ho := ownSemFacts
  hbody c := body_obligation m c
  hwaits := Pipeline.hwaits_of_owed_zero _ _ _ _ L lv 0 fun _ _ => rfl
  pre c := iprop(unscopedBufs c (Vm m c) ∗ R c)
  post c := iprop(Tₙ m c ∗ R c)
  X c := iprop(semVal ((c : Thread nD τ), SemLoc.dma 4) 0 ∗ hbPt c qR hbM (m ((c : Thread nD τ).loc main_arg0)))
  Y c := iprop(emp)
  Z c := iprop(emp)
  hentry c := by
    rw [ownSems0_eq, arrays_eq' m c, bigSep_W0]
    have hsplit : (unscopedBufs c (Vm m c) : sProp 𝕄) ⊢ iprop((((c : Thread nD τ).loc main_arg0) ↦{fullShare} Vm m c main_arg0) ∗ (((c : Thread nD τ).loc main_v0) ↦{fullShare} Vm m c main_v0)) := by
      rw [Pipeline.unscopedBufs_split (Pipeline.pin (pcfgs (F := F)) adm) 0 launch0.win.arr_unscoped launch0.win.arr_inj c (Vm m c), bigSep_W0]
      iintro ⟨⟨H0, H1⟩, -⟩; isplitl [H0] <;> iassumption
    iintro ⟨⟨Hub, HO⟩, Hos, -⟩
    ihave H := hsplit $$ Hub
    icases H with ⟨H0, H1⟩
    ihave Hs := (pointsTo_share (PosShare.mem_left_op_right fullShare)).1 $$ H0
    icases Hs with ⟨HL, HR⟩
    imodintro
    isplitl [HL H1]
    · isplitl [HL]
      · iexact HL
      · iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hos HR]
    · isplitl [Hos]; · iexact Hos
      iexact HR
    iempintro
  hin c := by
    rw [show (dats m 0 c).Φ 0 = ΦH m c from rfl, scopedRest0_eq]; unfold ΦH
    simp only [owns_whole]
    iintro ⟨⟨Hq, Hh⟩, -, Hr⟩
    isplitl [Hr]; · iexact Hr
    isplitl [Hq] <;> iassumption
  hout c := by
    rw [ownSems0_eq, show (dats m 0 c).Φ (Fin.last cfg0.N) = ΦH m c from rfl, scopedRest0_eq]; unfold ΦH
    simp only [owns_whole]
    iintro ⟨Hr, Hq, -⟩
    isplitr; · iempintro
    isplitl [Hq] <;> iassumption
  hexit c := by
    iintro ⟨Ha, HO, -, -⟩
    imodintro
    isplitl [Ha]; · iexact Ha
    unfold Pipeline.Dat.owesAt Pipeline.owesWithin
    icases HO with ⟨%W, -, HO⟩; iexists W; iexact HO

abbrev segs : List (Pipeline.Seg (pcfgs (F := F)) adm (dats m) () defs₀ Variants.none L lv) := [.region (reg0 m)]

set_option backward.isDefEq.respectTransparency.types false in
/-- From any memory with zero counters every weakly fair execution of @main terminates, and both arrays end at
    what the pipeline library computes from the proof data. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (reg0 m) c])
    (by simp only [Pipeline.Seg.pipes_region, Pipeline.Seg.pipes_nil]; decide) (O₀ := 0) (hL := fun _ _ => rfl) (G := fun _ => iprop(emp)) (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (Vm m c) ∗ R c)) (Tₙ := Tₙ m)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ w : Fin cfg0.W, s.mem ((cfg0.win w).arr.view.loc (c : Thread nD τ)) = finalA m c w)
    (hfin := fun c s' => by
      dsimp only [Tₙ]; rw [arrays_eq' m c, bigSep_W0]
      iintro ⟨⟨H0, H1⟩, HSI⟩
      icombine HSI H0 gives %h0
      icombine HSI H1 gives %h1
      imodintro
      isplitr
      · ipureintro; intro w
        match w with
        | ⟨0, _⟩ => exact Buf.eq_of_forall_mem_univ h0
        | ⟨1, _⟩ => exact Buf.eq_of_forall_mem_univ h1
      iexact HSI)
    (hQ := fun _ h => h)

end Cert.KernelIdeal.Hand

end
-- ==== Proof.FinalIdeal.lean ====
import proofs.«179438_j73160472920636_2_alg».proof.Proof.ObligIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

/-! ## The two arrays after the run

The input window's array is never written back, so it holds what it held at launch. The output window's blocks,
cut at the array's end, tile the array: sample `i` lies in block `i / 524288`, one of the grid's 51 points since
`50·524288 ≤ 26460000 - 1 < 51·524288`. Every point writes its block back, and what it writes is that block of the
mixed signal; so the output array ends holding the mixed signal. -/

/-- The input array after the run is the input array as launched. -/
theorem final_in (c : Dev nD) :
    (dats (F := F) m 0 c).arrAt (0 : Fin 2) cfg0.N = m ((c : Thread nD τ).loc main_arg0) := by
  rw [(dats (F := F) m 0 c).arrAt_in (0 : Fin 2) rfl cfg0.N]
  rfl

/-- The output's block index at point `t` is `t`. -/
theorem index_out : ∀ t : Fin cfg0.N, win0_1.index t (0 : Fin 1) = t.val :=
  (by decide +kernel : ∀ t : Fin grid0.N, win0_1.index t (0 : Fin 1) = t.val)

/-- The output's block at point `t` ends at `(t+1)·524288` or at the array's end, whichever comes first. -/
theorem xsize_out : ∀ t : Fin cfg0.N,
    t.val * 524288 + win0_1.xsize (grid0.coords t) (0 : Fin 1) = min ((t.val + 1) * 524288) 26460000 :=
  (by decide +kernel : ∀ t : Fin grid0.N,
    t.val * 524288 + win0_1.xsize (grid0.coords t) (0 : Fin 1) = min ((t.val + 1) * 524288) 26460000)

/-- A sample is in point `t`'s block iff its coordinate is from `t·524288` up to the block's end inside the array. -/
theorem mem_blk_out (t : Fin cfg0.N) (i : S26460000.Idx) :
    i ∈ (win0_1.blk t).view.set ↔ t.val * 524288 ≤ (i 0).val ∧ (i 0).val < min ((t.val + 1) * 524288) 26460000 := by
  show i ∈ ((View.whole main_v0).slice (win0_1.rect t)).set ↔ _
  rw [View.set_slice_whole, Rect.mem_set_unit]
  have hi := index_out t
  have hx := xsize_out t
  constructor
  · intro h
    have h0 := h 0
    change win0_1.index t 0 * 524288 ≤ (i 0).val
      ∧ (i 0).val < win0_1.index t 0 * 524288 + win0_1.xsize (grid0.coords t) 0 at h0
    rw [hi] at h0
    omega
  · intro h a
    match a with
    | ⟨0, _⟩ =>
      change win0_1.index t 0 * 524288 ≤ (i 0).val
        ∧ (i 0).val < win0_1.index t 0 * 524288 + win0_1.xsize (grid0.coords t) 0
      rw [hi]
      omega

/-- What point `t` writes back is block `t` of the mixed signal. -/
theorem flushed_out (c : Dev nD) (t : Fin cfg0.N) :
    (dats (F := F) m 0 c).flushed (1 : Fin 2) t = ((cfg0.win 1).blk t).view.read (Elt F) (yArr m c) := by
  show win0_1.cut (grid0.coords t) ((dats (F := F) m 0 c).after (1 : Fin 2) t) = _
  have h : (dats (F := F) m 0 c).after (1 : Fin 2) t = yblk8 m c t := by dsimp only [dats]
  rw [h]; unfold yblk8; rw [Window.cut_fill]; rfl

/-- Every sample of the array lies in the block of a point that writes back: point `i / 524288`. -/
theorem cover_out (i : S26460000.Idx) :
    ∃ t : Fin cfg0.N, (cfg0.win 1).flush t = true ∧ i ∈ ((cfg0.win 1).blk t).view.set := by
  have hi : (i 0).val < 26460000 := (i 0).isLt
  have hN : grid0.N = 51 := N_0
  have ht : (i 0).val / 524288 < cfg0.N := by show _ < grid0.N; omega
  refine ⟨⟨(i 0).val / 524288, ht⟩, flush0_1 _, (mem_blk_out ⟨(i 0).val / 524288, ht⟩ i).mpr ?_⟩
  show (i 0).val / 524288 * 524288 ≤ (i 0).val ∧ (i 0).val < min (((i 0).val / 524288 + 1) * 524288) 26460000
  omega

/-- The output array after the run is the mixed signal. -/
theorem final_out (c : Dev nD) : (dats (F := F) m 0 c).arrAt (1 : Fin 2) cfg0.N = yArr m c :=
  (dats (F := F) m 0 c).arrAt_eq_of_cover (1 : Fin 2) (yArr m c) (fun t _ => flushed_out m c t) (fun i => cover_out i)

end Cert.KernelIdeal.Hand

end
-- ==== Proof.RefIsSpec.lean ====
import proofs.«179438_j73160472920636_2_alg».proof.Proof.Gen.ReferenceIdeal.Read
import proofs.«179438_j73160472920636_2_alg».proof.Proof.Spec
import Idealize.ShloMosaic.Lib.ValueIdx
import Idealize.ShloMosaic.Lib.Pipeline.Value
import Idealize.ShloMosaic.PureOps.Ideal.Laws

/-! # The reference computes the multi-tap delay mix

The reference program's result, as a term of its argument array `x`, is
`x·½ + ((((0 + g₁·d₁) + g₂·d₂) + g₃·d₃) + g₄·d₄)·½` where `d_k` is `x` padded in front by `s_k` zeros and cut
back to the first `26460000` samples. Reading a front-padded array at coordinate `t` gives `x[t - s_k]` when
`s_k ≤ t` and the pad value otherwise, so `d_k` is the signal delayed by `s_k`, and the whole term is the
specification's `tapMix x`, at the extended reals. The gain constants are the same words on both sides and are
never evaluated; only the pad value is: the integer zero converted to a float is the real zero, which is also
what the all-zero word denotes. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- A rank-one array padded in front by `s` elements (nothing behind, nothing between), read at an index: the
    operand at `t - s` where `s ≤ t` and that coordinate is inside the operand, the pad value elsewhere. -/
theorem pad_front_apply {α : Type} {n N : Nat} (s : Nat) (x : (⟨1, ![n]⟩ : Shape).Idx → α) {u : Shape} (v : u.Idx → α)
    (h : (⟨1, ![n]⟩ : Shape).Pads ![s] ![0] ![0] ⟨1, ![N]⟩) (hu : 0 < u.numel) (j : (⟨1, ![N]⟩ : Shape).Idx) :
    pad ⟨1, ![N]⟩ ![s] ![0] ![0] x v h hu j =
      if hs : s ≤ (j 0).val ∧ (j 0).val - s < n then x (ix1 ⟨(j 0).val - s, hs.2⟩) else v (Shape.Idx.first hu) := by
  unfold pad
  by_cases hs : s ≤ (j 0).val ∧ (j 0).val - s < n
  · rw [dif_pos hs, dif_pos]
    · congr 1; funext a; match a with
        | ⟨0, _⟩ => apply Fin.ext; simp
    · intro a; match a with
        | ⟨0, _⟩ => simp; exact ⟨hs.1, Nat.mod_one _, hs.2⟩
  · rw [dif_neg hs, dif_neg]
    intro hin; apply hs; have := hin 0; simp at this; exact ⟨this.1, this.2.2⟩

/-- The pad value of the reference: the integer zero converted, which is the real zero. -/
theorem sitofp_zero (k : S_.Idx) : sitofp (F := Ideal) .f32 (constantI S_ 32 0#32) k = 0 := by
  show (((0#32 : BitVec 32).toInt : ℝ) : EReal) = 0
  simp

/-- Padding `x` in front by `s` zeros and reading at coordinate `t` gives `x[t - s]`, and zero where `t < s`:
    the signal delayed by `s`. -/
theorem pad_eq_delayed {N : Nat} (s : Nat) (x : FVec Ideal S26460000 .f32) (v : S_.Idx → Ideal .f32)
    (hv : ∀ k, v k = 0) (h : S26460000.Pads ![s] ![0] ![0] ⟨1, ![N]⟩) (hu : 0 < S_.numel)
    (j : (⟨1, ![N]⟩ : Shape).Idx) (i : S26460000.Idx) (hj : (j 0).val = (i 0).val) :
    pad ⟨1, ![N]⟩ ![s] ![0] ![0] x v h hu j = Cert.TapSpec.delayed (F := Ideal) x s i := by
  rw [pad_front_apply]
  unfold Cert.TapSpec.delayed
  have hi : (i 0).val < 26460000 := (i 0).isLt
  by_cases hs : s ≤ (i 0).val
  · rw [dif_pos hs, dif_pos ⟨by omega, by omega⟩]
    congr 2
    apply Fin.ext
    show (j 0).val - s = (i 0).val - s
    rw [hj]
  · rw [dif_neg hs, dif_neg (fun hh => hs (by omega)), hv]
    exact Ideal.ofBits_zero_f32.symm

section Taps
open Cert.ReferenceIdeal.Read

/-- The first tap: pad by 11026, cut to length, is the signal delayed by 11026. -/
theorem tap1 (x : FVec Ideal S26460000 .f32) (i : S26460000.Idx) :
    val_main_v2 (F := Ideal) x i = Cert.TapSpec.delayed (F := Ideal) x 11026 i := by
  rw [val_main_v2_apply]
  exact pad_eq_delayed 11026 x _ sitofp_zero _ _ _ i rfl

/-- The second tap: delayed by 22051. -/
theorem tap2 (x : FVec Ideal S26460000 .f32) (i : S26460000.Idx) :
    val_main_v7 (F := Ideal) x i = Cert.TapSpec.delayed (F := Ideal) x 22051 i := by
  rw [val_main_v7_apply]
  exact pad_eq_delayed 22051 x _ sitofp_zero _ _ _ i rfl

/-- The third tap: delayed by 33076. -/
theorem tap3 (x : FVec Ideal S26460000 .f32) (i : S26460000.Idx) :
    val_main_v12 (F := Ideal) x i = Cert.TapSpec.delayed (F := Ideal) x 33076 i := by
  rw [val_main_v12_apply]
  exact pad_eq_delayed 33076 x _ sitofp_zero _ _ _ i rfl

/-- The fourth tap: delayed by 44101. -/
theorem tap4 (x : FVec Ideal S26460000 .f32) (i : S26460000.Idx) :
    val_main_v17 (F := Ideal) x i = Cert.TapSpec.delayed (F := Ideal) x 44101 i := by
  rw [val_main_v17_apply]
  exact pad_eq_delayed 44101 x _ sitofp_zero _ _ _ i rfl

/-- The reference's last stage is the specification, index by index: the pointwise operations are read at the
    index, the four padded-and-cut operands are the four delayed signals, and the constants are the same words. -/
theorem stage_eq (x : FVec Ideal S26460000 .f32) :
    val_main_v25 (F := Ideal) x = Cert.TapSpec.tapMix (F := Ideal) x := by
  funext i
  rw [val_main_v25_apply, val_main_v22_apply, val_main_v24_apply, val_main_v20_apply, val_main_v19_apply,
    val_main_v15_apply, val_main_v14_apply, val_main_v10_apply, val_main_v9_apply, val_main_v5_apply,
    val_main_v4_apply, tap1, tap2, tap3, tap4,
    val_main_v21_apply, val_main_cst_7_apply, val_main_v23_apply, val_main_cst_8_apply,
    val_main_v0_apply, val_main_cst_apply, val_main_v3_apply, val_main_cst_0_apply,
    val_main_v8_apply, val_main_cst_2_apply, val_main_v13_apply, val_main_cst_4_apply,
    val_main_v18_apply, val_main_cst_6_apply]
  rfl

end Taps

/-- The result term the reference's run states for its output buffer, with the argument array `x`, is the
    specification of `x`. -/
theorem result_eq (x : FVec Ideal S26460000 .f32) :
    addf (mulf (x) (broadcastInDim S26460000 ![] bcast_S_S26460000 (constant S_ .f32 0x3F000000#32))) (mulf (addf (addf (addf (addf (broadcastInDim S26460000 ![] bcast_S_S26460000 (constant S_ .f32 0x00000000#32)) (mulf (broadcastInDim S26460000 ![] bcast_S_S26460000 (constant S_ .f32 0x3F4CCCCD#32)) (extractStridedSlice S26460000 ![0] (pad S26471026 ![11026] ![0] ![0] (x) (sitofp .f32 (constantI S_ 32 0#32)) pads_S26460000_S26471026_1102600 h_S_) slices_S26471026_S26460000_0))) (mulf (broadcastInDim S26460000 ![] bcast_S_S26460000 (constant S_ .f32 0x3F23D70A#32)) (extractStridedSlice S26460000 ![0] (pad S26482051 ![22051] ![0] ![0] (x) (sitofp .f32 (constantI S_ 32 0#32)) pads_S26460000_S26482051_2205100 h_S_) slices_S26482051_S26460000_0))) (mulf (broadcastInDim S26460000 ![] bcast_S_S26460000 (constant S_ .f32 0x3F03126F#32)) (extractStridedSlice S26460000 ![0] (pad S26493076 ![33076] ![0] ![0] (x) (sitofp .f32 (constantI S_ 32 0#32)) pads_S26460000_S26493076_3307600 h_S_) slices_S26493076_S26460000_0))) (mulf (broadcastInDim S26460000 ![] bcast_S_S26460000 (constant S_ .f32 0x3ED1B717#32)) (extractStridedSlice S26460000 ![0] (pad S26504101 ![44101] ![0] ![0] (x) (sitofp .f32 (constantI S_ 32 0#32)) pads_S26460000_S26504101_4410100 h_S_) slices_S26504101_S26460000_0))) (broadcastInDim S26460000 ![] bcast_S_S26460000 (constant S_ .f32 0x3F000000#32)))
      = Cert.TapSpec.tapMix (F := Ideal) x :=
  (Read.val_main_v25_eq (F := Ideal) x).trans (stage_eq x)

end Cert.ReferenceIdeal.RefValue

end
-- ==== Proof.lean ====
/-
  The multi-tap delay kernel against its reference.

  The signal has 26,460,000 samples. The result is `x[t]·½ + wet[t]·½` with `wet[t] = Σ_k g_k · x[t - s_k]` over four
  taps `s_k = 11026, 22051, 33076, 44101`, a sample before the start of the signal reading zero; the sum is taken
  from zero in the same order, with the same constants, by both programs, so at every index the two results are
  the same term (`Cert.TapSpec.tapMix`) and no law of the extended reals is needed — in particular not finiteness.

  The kernel walks the signal in 51 blocks of 524,288 samples (the last one overhangs the array and is cut at
  its end). At each block it needs the 44,101 samples before the block: it keeps 45,056 look-back samples in a
  scratch buffer, zeroed at the first block and, at every later block, copied out of the input array by a transfer
  the body starts and waits for itself. The taps are four slices of the look-back samples followed by the current
  block. Every tap looks strictly backward, so the samples of the last block's buffer past the array's end —
  which nothing names — only reach output positions past the array's end, which are never written back.

  The input array is thus read both by the pipeline's window and by the body's own transfer: the pipeline holds
  it at one half of the full share and the body's invariant at the other half.

  Frames: each kernel program's run (`run_main`) ends with the input array as launched; the reference's frame
  is its run with the result dropped. Value: the kernel's result array ends at `tapMix x` (the blocks written
  back cover the array and each is that function's block), and the reference's run term is `tapMix x` read index
  by index (a front pad followed by a slice is the delayed signal).
-/
import proofs.«179438_j73160472920636_2_alg».proof.Defs
import proofs.«179438_j73160472920636_2_alg».proof.Proof.Gen.Kernel
import proofs.«179438_j73160472920636_2_alg».proof.Proof.Gen.KernelIdeal
import proofs.«179438_j73160472920636_2_alg».proof.Proof.Gen.ReferenceIdeal
import proofs.«179438_j73160472920636_2_alg».proof.Proof.Gen.ReferenceIdeal.Run
import proofs.«179438_j73160472920636_2_alg».proof.Proof.Gen.ReferenceIdeal.Read
import proofs.«179438_j73160472920636_2_alg».proof.Proof.Gen.Pre_finite_inputs
import proofs.«179438_j73160472920636_2_alg».proof.Proof.RunBits
import proofs.«179438_j73160472920636_2_alg».proof.Proof.FinalBits
import proofs.«179438_j73160472920636_2_alg».proof.Proof.RunIdeal
import proofs.«179438_j73160472920636_2_alg».proof.Proof.FinalIdeal
import proofs.«179438_j73160472920636_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves the input array as launched. -/
theorem frame_k : Cert.frame_Kernel := fun m ρ _ =>
  (θ_run Cert.Kernel.defs _ _).mono (fun _ h c => (h c 0).trans (Cert.Kernel.Hand.final_in m c))
    (Cert.Kernel.Hand.run_main (F := Bits) m ρ)

/-- The idealized kernel likewise. -/
theorem frame_ki : Cert.frame_KernelIdeal := fun m ρ _ =>
  (θ_run Cert.KernelIdeal.defs _ _).mono (fun _ h c => (h c 0).trans (Cert.KernelIdeal.Hand.final_in m c))
    (Cert.KernelIdeal.Hand.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the mixed signal of the common input. -/
theorem algebraic : Cert.algebraic_KernelIdeal_ReferenceIdeal := by
  intro m ρ m' ρ' _ hagree
  refine ⟨fun c => Cert.KernelIdeal.Hand.yArr m c, ?_, ?_⟩
  · exact (θ_run Cert.KernelIdeal.defs _ _).mono
      (fun _ h c => ⟨(h c 1).trans (Cert.KernelIdeal.Hand.final_out m c), (h c 0).trans (Cert.KernelIdeal.Hand.final_in m c)⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
